-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S400x256 : Shape := ⟨2, ![400, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩

abbrev nBuf : Space → Nat
  | .hbm => 41
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000x256, .bf16⟩
  | .hbm, ⟨11, _⟩ => ⟨S256x256, .bf16⟩
  | .hbm, ⟨12, _⟩ => ⟨S256x256, .bf16⟩
  | .hbm, ⟨13, _⟩ => ⟨S10000x256, .bf16⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .bf16⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S_, .f32⟩
  | .hbm, ⟨29, _⟩ => ⟨S320000, .f32⟩
  | .hbm, ⟨30, _⟩ => ⟨S_, .f32⟩
  | .hbm, ⟨31, _⟩ => ⟨S10000, .f32⟩
  | .hbm, ⟨32, _⟩ => ⟨S320000x1, .i32⟩
  | .hbm, ⟨33, _⟩ => ⟨S10000, .f32⟩
  | .hbm, ⟨34, _⟩ => ⟨S10000x1, .f32⟩
  | .hbm, ⟨35, _⟩ => ⟨S1x256, .f32⟩
  | .hbm, ⟨36, _⟩ => ⟨S10000x256, .f32⟩
  | .hbm, ⟨37, _⟩ => ⟨S10000x256, .f32⟩
  | .hbm, ⟨38, _⟩ => ⟨S10000x256, .f32⟩
  | .hbm, ⟨39, _⟩ => ⟨S10000x256, .bf16⟩
  | .hbm, ⟨40, _⟩ => ⟨S10000x256, .f32⟩
  | .local _ .vmem, ⟨0, _⟩ => ⟨S400x256, .bf16⟩
  | .local _ .vmem, ⟨1, _⟩ => ⟨S400x256, .bf16⟩
  | .local _ .vmem, ⟨2, _⟩ => ⟨S256x256, .bf16⟩
  | .local _ .vmem, ⟨3, _⟩ => ⟨S256, .f32⟩
  | .local _ .vmem, ⟨4, _⟩ => ⟨S400x256, .bf16⟩
  | .local _ .vmem, ⟨5, _⟩ => ⟨S400x256, .bf16⟩
  | .local _ .vmem, ⟨6, _⟩ => ⟨S400x256, .f32⟩
  | .local _ .vmem, ⟨7, _⟩ => ⟨S400x256, .f32⟩
  | .local _ .vmem, ⟨8, _⟩ => ⟨S400x256, .bf16⟩
  | .local _ .vmem, ⟨9, _⟩ => ⟨S400x256, .bf16⟩
  | .local _ .vmem, ⟨10, _⟩ => ⟨S400x256, .f32⟩
  | .local _ .vmem, ⟨11, _⟩ => ⟨S400x256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S400x256, .f32⟩
  | .local _ .vmem, ⟨17, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  packedbf16_S400x256_S400x256_0_0 : (Rect.unit (s := S400x256) ![0, 0] S400x256.size inb_S400x256_S400x256_0_0).PackedRows (EltTy.packing .bf16)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S256_S1x256_1 : S256.BroadcastsInDim S1x256 (![1] : Fin 1 → Fin S1x256.rank)
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  dot_S400x256_S256x256_S400x256_1_0_0_1_n_n_wf : DotDims.WF S400x256 S256x256 S400x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .bf16 = 32 ∨ (Rect.block (s := S10000x256) S400x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .bf16 = 32 ∨ (Rect.block (s := S10000x256) S400x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x256.size a ≤ S10000x256.size a
  hwx1_0 : ∀ i : grid1.Coords, EltTy.bits .f32 = 32 ∨ (Rect.block (s := S10000x256) S400x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x256.size a ≤ S10000x256.size a
  hwx1_1 : ∀ i : grid1.Coords, EltTy.bits .bf16 = 32 ∨ (Rect.block (s := S10000x256) S400x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x256.size a ≤ S10000x256.size a
  hwx1_7 : ∀ i : grid1.Coords, EltTy.bits .f32 = 32 ∨ (Rect.block (s := S10000x256) S400x256.size (cc1_transform_7 i) (hinb1_7 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf

abbrev win0_0 : Pipeline.Window sig grid0 :=
  Pipeline.Window.ofSpec (Memref.whole main_v4) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S400x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S320000x256, .f32⟩
  | .hbm, ⟨20, _⟩ => ⟨S1x256, .f32⟩
  | .hbm, ⟨21, _⟩ => ⟨S320000x256, .f32⟩
  | .hbm, ⟨22, _⟩ => ⟨S320000x256, .f32⟩
  | .hbm, ⟨23, _⟩ => ⟨S_, .f32⟩
  | .hbm, ⟨24, _⟩ => ⟨S320000x256, .f32⟩
  | .hbm, ⟨25, _⟩ => ⟨S320000x256, .f32⟩
  | .hbm, ⟨26, _⟩ => ⟨S320000x256, .f32⟩
  | .hbm, ⟨27, _⟩ => ⟨S1x256, .f32⟩
  | .hbm, ⟨28, _⟩ => ⟨S320000x256, .f32⟩
  | .hbm, ⟨29, _⟩ => ⟨S320000x256, .f32⟩
  | .hbm, ⟨30, _⟩ => ⟨S_, .f32⟩
  | .hbm, ⟨31, _⟩ => ⟨S10000x256, .f32⟩
  | .hbm, ⟨32, _⟩ => ⟨S320000x1, .i32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_cst : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibDenseLayer.lean ====
/-
  One dense layer and one rectifier over the extended reals, in the kernel's spelling and in the host's.

  A dense layer sends a matrix h [M, K], a weight w [K, N] and a bias b [N] to the matrix whose entry (r, c) is
  ∑ₖ h(r, k) · w(k, c) + b(c); the rectifier takes the larger of an entry and zero. The kernel spells the layer as
  a matrix product accumulated from zero, of operands passed through a change of float format (the identity on
  the extended reals), plus the bias laid out as a row [1, N] and repeated down the rows. The host spells it as
  `dot_general` plus the bias sent to a row [1, N] and from there to every row. Both are the same function of
  (h, w, b), entry by entry: no sum is reordered and no factor is moved, so no entry need be finite.
  Entry (r, c) of a layer depends on row r of h alone, so a block of consecutive rows of the layer of a long matrix
  is the layer of that block of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«157220_j79688823210541_2_alg».proof.Proof.LibPlainDot

noncomputable section

namespace Cert.LibDenseLayer

open Idealize.ShloMosaic Idealize.ShloMosaic.ValueIdx

variable {M K N : Nat}

/-- The dense layer: entry (r, c) is ∑ₖ h(r, k) · w(k, c) + b(c). -/
def affine (h : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, h (ix2 (i 0) k) * w (ix2 k (i 1))) + b (ix1 (i 1))

/-- The rectifier: the larger of an entry and zero (the zero kept as its float word). -/
def relu {s : Shape} (v : FVec Ideal s .f32) : FVec Ideal s .f32 :=
  fun i => max (v i) (Ideal.ofBits .f32 0x00000000#32)

/-- The kernel's layer: a product accumulated from zero plus a bias row repeated down the rows, the row holding the
    bias vector (`hrow`). -/
theorem matmul_bias (wf : DotDims.WF (⟨2, ![M, K]⟩ : Shape) ⟨2, ![K, N]⟩ ⟨2, ![M, N]⟩ [1] [0] [0] [1] [] [])
    (lt : FTy.bits .bf16 < FTy.bits .f32) (hb : (⟨2, ![1, N]⟩ : Shape).Broadcasts ⟨2, ![M, N]⟩)
    (h : FVec Ideal ⟨2, ![M, K]⟩ .f32) (w : FVec Ideal ⟨2, ![K, N]⟩ .f32)
    (row : FVec Ideal ⟨2, ![1, N]⟩ .f32) (b : FVec Ideal ⟨1, ![N]⟩ .f32)
    (hrow : ∀ c : Fin N, row (ix2 (0 : Fin 1) c) = b (ix1 c)) :
    addf (FloatOps.matmul (LibPlainDot.dims wf) none (truncf .bf16 h lt) (truncf .bf16 w lt)
        (constant ⟨2, ![M, N]⟩ .f32 0x00000000#32)) (broadcastTo ⟨2, ![M, N]⟩ row hb) = affine h w b := by
  funext i
  obtain ⟨r, c, rfl⟩ : ∃ (r : Fin M) (c : Fin N), i = ix2 r c := ⟨i 0, i 1, eq_ix2 i⟩
  rw [addf_apply, LibPlainDot.matmul_zero_apply, broadcastTo_1b_ab_apply, hrow]
  rfl

/-- The host's layer: `dot_general` plus the bias vector sent to a row and from the row to every row. -/
theorem dot_bias (wf : DotDims.WF (⟨2, ![M, K]⟩ : Shape) ⟨2, ![K, N]⟩ ⟨2, ![M, N]⟩ [1] [0] [0] [1] [] [])
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (w : FVec Ideal ⟨2, ![K, N]⟩ .f32) (b : FVec Ideal ⟨1, ![N]⟩ .f32) :
    addf (Host.dotGeneral (LibPlainDot.dims wf) none h w)
        (broadcastInDim ⟨2, ![M, N]⟩ ![0, 1] h2 (broadcastInDim ⟨2, ![1, N]⟩ ![1] h1 b)) = affine h w b := by
  funext i
  obtain ⟨r, c, rfl⟩ : ∃ (r : Fin M) (c : Fin N), i = ix2 r c := ⟨i 0, i 1, eq_ix2 i⟩
  rw [addf_apply]
  show FloatOps.dotGeneral (LibPlainDot.dims wf) none .single h w (ix2 r c) + _ = _
  rw [LibPlainDot.dotGeneral_apply]
  have e2 : broadcastInDim ⟨2, ![M, N]⟩ ![0, 1] h2 (broadcastInDim ⟨2, ![1, N]⟩ ![1] h1 b) (ix2 r c)
      = broadcastInDim ⟨2, ![1, N]⟩ ![1] h1 b (ix2 (0 : Fin 1) c) :=
    broadcastInDim_apply _ h2 _ (ix2 r c) (ix2 (0 : Fin 1) c) (fun a => by
      match a with
      | ⟨0, _⟩ => rfl
      | ⟨1, _⟩ =>
        show c.val = if N = 1 then 0 else c.val
        have := c.isLt
        split <;> omega)
  have e1 : broadcastInDim ⟨2, ![1, N]⟩ ![1] h1 b (ix2 (0 : Fin 1) c) = b (ix1 c) :=
    broadcastInDim_apply _ h1 b (ix2 (0 : Fin 1) c) (ix1 c) (fun a => by
      match a with
      | ⟨0, _⟩ =>
        show c.val = if N = 1 then 0 else c.val
        have := c.isLt
        split <;> omega)
  rw [e2, e1]
  rfl

/-- The kernel's rectifier: the maximum with a scalar zero repeated over the block. -/
theorem max_splat {s : Shape} (v : FVec Ideal s .f32) :
    maximumf v (broadcast s (Scalar.ofBits (F := Ideal) .f32 0x00000000#32)) = relu v := rfl

/-- The host's rectifier: the maximum with a scalar zero constant sent to every entry. -/
theorem max_bcast {s : Shape} (hb : (⟨0, ![]⟩ : Shape).BroadcastsInDim s ![]) (v : FVec Ideal s .f32) :
    maximumf v (broadcastInDim s ![] hb (constant (F := Ideal) ⟨0, ![]⟩ .f32 0x00000000#32)) = relu v := by
  funext i
  rw [maximumf_apply, broadcastInDim_apply _ hb _ i ix0 (fun a => a.elim0)]
  rfl

/-- ROW BLOCKS of a layer: entry (off + p, c) of the layer of a long matrix is entry (p, c) of the layer of the block
    of its rows off … off + B. -/
theorem affine_rows {B off : Nat} (hB : off + B ≤ M)
    (H : FVec Ideal ⟨2, ![M, K]⟩ .f32) (h : FVec Ideal ⟨2, ![B, K]⟩ .f32)
    (w : FVec Ideal ⟨2, ![K, N]⟩ .f32) (b : FVec Ideal ⟨1, ![N]⟩ .f32) (p : Fin B) (c : Fin N)
    (hrows : ∀ k : Fin K, h (ix2 p k) = H (ix2 ⟨off + p.val, by have := p.isLt; omega⟩ k)) :
    affine H w b (ix2 ⟨off + p.val, by have := p.isLt; omega⟩ c) = affine h w b (ix2 p c) := by
  show (∑ k : Fin K, H (ix2 ⟨off + p.val, by have := p.isLt; omega⟩ k) * w (ix2 k c)) + b (ix1 c)
    = (∑ k : Fin K, h (ix2 p k) * w (ix2 k c)) + b (ix1 c)
  exact congrArg (· + b (ix1 c)) (Finset.sum_congr rfl fun k _ => by rw [hrows k])

/-- ROW BLOCKS of a convolution's dense stack: entry (off + p, q) of relu(relu((X + A) · w₁ + b₁) · w₂ + b₂) over the
    long matrices is entry (p, q) of the same stack over the blocks x, a of their rows off … off + B: each layer reads
    row off + p of its operand alone, and that row of X + A is row p of x + a. -/
theorem stack_rows {B off : Nat} (hB : off + B ≤ M)
    (X A : FVec Ideal ⟨2, ![M, K]⟩ .f32) (x a : FVec Ideal ⟨2, ![B, K]⟩ .f32)
    (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (p : Fin B) (q : Fin N)
    (hx : ∀ k : Fin K, x (ix2 p k) = X (ix2 ⟨off + p.val, by have := p.isLt; omega⟩ k))
    (ha : ∀ k : Fin K, a (ix2 p k) = A (ix2 ⟨off + p.val, by have := p.isLt; omega⟩ k)) :
    relu (affine (relu (affine (addf X A) w1 b1)) w2 b2) (ix2 ⟨off + p.val, by have := p.isLt; omega⟩ q)
      = relu (affine (relu (affine (addf x a) w1 b1)) w2 b2) (ix2 p q) := by
  show max (affine (relu (affine (addf X A) w1 b1)) w2 b2 (ix2 ⟨off + p.val, by have := p.isLt; omega⟩ q)) _
    = max (affine (relu (affine (addf x a) w1 b1)) w2 b2 (ix2 p q)) _
  refine congrArg (max · _) (affine_rows hB _ _ w2 b2 p q fun k => ?_)
  show max (affine (addf x a) w1 b1 (ix2 p k)) _ = max (affine (addf X A) w1 b1 (ix2 ⟨off + p.val, by have := p.isLt; omega⟩ k)) _
  refine congrArg (max · _) (affine_rows hB _ _ w1 b1 p k fun j => ?_).symm
  show x (ix2 p j) + a (ix2 p j) = X (ix2 ⟨off + p.val, by have := p.isLt; omega⟩ j) + A (ix2 ⟨off + p.val, by have := p.isLt; omega⟩ j)
  rw [hx j, ha j]

end Cert.LibDenseLayer

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.LibVecScatter.lean ====
/-
  Scatter-add into a vector, read at an index.

  For a vector `x : [N]`, a column of integer positions `idx : [E, 1]` and updates `upd : [E]`, the accumulating scatter
  (jnp's `segment_sum` of a vector, `x.at[idx].add(upd)`) has element `n` equal to `x n` plus the sum of `upd e` over those
  `e` whose position `idx[e, 0]`, read as a signed integer and NOT clamped, is `n`: an update whose position lies outside
  `[0, N)` lands nowhere. The set of contributing `e` is the one the row scatter-add of a matrix `[N, D]` by the same
  positions has (LibRowGatherScatter), so a count kept as an extra column of a matrix and a count scattered on its own agree.
-/
import Idealize.ShloMosaic.PureOps.Ideal
import Idealize.ShloMosaic.Lib.ValueIdx
import proofs.«157220_j79688823210541_2_alg».proof.Proof.LibRowGatherScatter

noncomputable section

open scoped BigOperators

namespace Cert.Lib.VecScatter

open Idealize.ShloMosaic Idealize.ShloMosaic.ValueIdx

/-- The scatter's dimension numbers for an operand `[N]`, scatter indices `[E, 1]` and updates `[E]`: the updates have no
    window axis, the operand's one axis is inserted and is the one the scatter index names; the index vector lies along
    axis 1 of the scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-one index is its one coordinate. -/
def idxEquiv1 {n : Nat} : (⟨1, ![n]⟩ : Shape).Idx ≃ Fin n where
  toFun j := j 0
  invFun a := ix1 a
  left_inv j := (eq_ix1 j).symm
  right_inv _ := rfl

/-- A sum over a rank-one index set is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

variable {N E w : Nat} (wf : ScatterDims.WF ⟨1, ![N]⟩ ⟨2, ![E, 1]⟩ ⟨1, ![E]⟩ [] [0] [0] 1)

/-- The scatter-indices index the scatter reads for update index `e`: `[e, 0]`. -/
theorem scatter_siIdx (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simpa using this

/-- The start is the scatter index `idx[e, 0]`, read signed and not clamped. -/
theorem scatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [scatter_siIdx]

/-- The one axis is inserted: no window coordinate. -/
theorem scatter_window0 (e : Fin E) : (vecScatterDims N E wf).window (ix1 e) 0 = 0 := by
  unfold ScatterDims.window
  rw [dif_neg]
  simp [ScatterDims.sKept, Shape.kept]

/-- WHERE AN UPDATE LANDS: update `e` lands on operand element `n` exactly when its scatter index `idx[e, 0]`, read as a
    signed integer, is `n`. -/
theorem resultIdx?_eq_some_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  rw [Cert.Lib.RowGatherScatter.resultIdx?_eq_some_iff_forall]
  have h1 : ∀ P : Fin 1 → Prop, (∀ a, P a) ↔ P 0 := fun P => Fin.forall_fin_one
  refine (h1 _).trans ?_
  rw [scatter_start0, scatter_window0]
  show (idx (ix2 e (0 : Fin 1))).toInt + ((0 : Nat) : Int) = (n.val : Int) ↔ _
  constructor <;> intro h <;> omega

/-- THE VECTOR SCATTER-ADD READ AT `n`: the operand's element plus the sum of the updates `e` over the `e` whose scatter
    index `idx[e, 0]`, read as a signed integer and not clamped, is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [resultIdx?_eq_some_iff]

end Cert.Lib.VecScatter

end
-- ==== Proof.LibSegmentSum.lean ====
/-
  Per-node sums over the in-edges, and the per-node mean.

  `inEdges dst n` is the set of edges `e` whose destination `dst e`, read as a signed integer, is the node `n` (an edge whose
  destination is outside `[0, N)` is an in-edge of no node). A scatter-add from a table of zeros by the column of
  destinations is, at node `n`, zero plus the sum over `inEdges dst n`: of a row of a matrix of any width (`rows_apply`) and
  of an entry of a vector (`vec_apply`). So the per-node feature sums and the in-degree are the same numbers whether the
  degree is scattered on its own, as a vector of ones, or as an extra column of ones appended to the features.
  `nodeMean` is the mean both programs compute from them: the feature sum over `max (degree, 1)`.
-/
import Idealize.ShloMosaic.PureOps.Ideal
import Idealize.ShloMosaic.Lib.ValueIdx
import Idealize.ShloMosaic.Lib.Pipeline.Value
import proofs.«157220_j79688823210541_2_alg».proof.Proof.LibRowGatherScatter
import proofs.«157220_j79688823210541_2_alg».proof.Proof.LibVecScatter

noncomputable section

open scoped BigOperators

namespace Cert.SegmentSum

open Idealize.ShloMosaic Idealize.ShloMosaic.ValueIdx Cert.Lib.RowGatherScatter Cert.Lib.VecScatter

variable {N E : Nat}

/-- The edges into node `n`: those whose destination, read as a signed integer, is `n`. -/
def inEdges (dst : IVec ⟨1, ![E]⟩ 32) (n : Fin N) : Finset (Fin E) :=
  Finset.univ.filter fun e => (dst (ix1 e)).toInt = (n.val : Int)

/-- The destinations as a column: entry `(e, 0)` is `dst e`. -/
theorem col_apply (hbI : (⟨1, ![E]⟩ : Shape).BroadcastsInDim ⟨2, ![E, 1]⟩ (![0] : Fin 1 → Fin 2))
    (dst : IVec ⟨1, ![E]⟩ 32) (e : Fin E) :
    broadcastInDim (⟨2, ![E, 1]⟩ : Shape) ![0] hbI dst (ix2 e (0 : Fin 1)) = dst (ix1 e) :=
  broadcastInDim_apply _ hbI dst _ (ix1 e) (fun a => match a with
    | ⟨0, _⟩ => by
      show e.val = if E = 1 then 0 else e.val
      have := e.isLt
      split <;> omega)

/-- A splat of a float word read at any index is the word's value. -/
theorem splat_apply {s : Shape} (hb : (⟨0, ![]⟩ : Shape).BroadcastsInDim s (![] : Fin 0 → Fin s.rank)) (w : BitVec 32)
    (i : s.Idx) :
    broadcastInDim s ![] hb (constant (F := Ideal) (⟨0, ![]⟩ : Shape) .f32 w) i = Ideal.ofBits .f32 w :=
  broadcastInDim_apply _ hb _ i ix0 (fun a => a.elim0)

/-- ROWS SUMMED PER NODE: the scatter-add of the rows of `upd` from zeros by the column of destinations holds, at
    `(n, k)`, zero plus the sum of `upd (e, k)` over the edges into `n`. -/
theorem rows_apply {D : Nat} (wf : ScatterDims.WF ⟨2, ![N, D]⟩ ⟨2, ![E, 1]⟩ ⟨2, ![E, D]⟩ [1] [0] [0] 1)
    (hb0 : (⟨0, ![]⟩ : Shape).BroadcastsInDim ⟨2, ![N, D]⟩ (![] : Fin 0 → Fin 2))
    (hbI : (⟨1, ![E]⟩ : Shape).BroadcastsInDim ⟨2, ![E, 1]⟩ (![0] : Fin 1 → Fin 2))
    (dst : IVec ⟨1, ![E]⟩ 32) (upd : FVec Ideal ⟨2, ![E, D]⟩ .f32) (n : Fin N) (k : Fin D) :
    Host.scatterAdd (F := Ideal) (rowScatterDims N D E wf)
        (broadcastInDim (⟨2, ![N, D]⟩ : Shape) ![] hb0 (constant (F := Ideal) (⟨0, ![]⟩ : Shape) .f32 0x00000000#32))
        (broadcastInDim (⟨2, ![E, 1]⟩ : Shape) ![0] hbI dst) upd (ix2 n k)
      = Ideal.ofBits .f32 0x00000000#32 + ∑ e ∈ inEdges dst n, upd (ix2 e k) := by
  show Ideal.hostScatterAdd _ _ _ _ _ = _
  rw [scatterAdd_rows_apply, splat_apply]
  unfold inEdges
  congr 1
  refine Finset.sum_congr (Finset.filter_congr fun e _ => ?_) fun _ _ => rfl
  rw [col_apply hbI dst e]

/-- ENTRIES SUMMED PER NODE: the same for a vector of updates. -/
theorem vec_apply (wf : ScatterDims.WF ⟨1, ![N]⟩ ⟨2, ![E, 1]⟩ ⟨1, ![E]⟩ [] [0] [0] 1)
    (hb0 : (⟨0, ![]⟩ : Shape).BroadcastsInDim ⟨1, ![N]⟩ (![] : Fin 0 → Fin 1))
    (hbI : (⟨1, ![E]⟩ : Shape).BroadcastsInDim ⟨2, ![E, 1]⟩ (![0] : Fin 1 → Fin 2))
    (dst : IVec ⟨1, ![E]⟩ 32) (upd : FVec Ideal ⟨1, ![E]⟩ .f32) (n : Fin N) :
    Host.scatterAdd (F := Ideal) (vecScatterDims N E wf)
        (broadcastInDim (⟨1, ![N]⟩ : Shape) ![] hb0 (constant (F := Ideal) (⟨0, ![]⟩ : Shape) .f32 0x00000000#32))
        (broadcastInDim (⟨2, ![E, 1]⟩ : Shape) ![0] hbI dst) upd (ix1 n)
      = Ideal.ofBits .f32 0x00000000#32 + ∑ e ∈ inEdges dst n, upd (ix1 e) := by
  show Ideal.hostScatterAdd _ _ _ _ _ = _
  rw [scatterAdd_vec_apply, splat_apply]
  unfold inEdges
  congr 1
  refine Finset.sum_congr (Finset.filter_congr fun e _ => ?_) fun _ _ => rfl
  rw [col_apply hbI dst e]

/-- THE PER-NODE MEAN of the in-edge features: at `(n, f)` the sum of feature `f` over the edges into `n`, over the
    in-degree of `n` clamped below by one. (Zero, one: the f32 words the programs write.) -/
def nodeMean {D : Nat} (ef : FVec Ideal ⟨2, ![E, D]⟩ .f32) (dst : IVec ⟨1, ![E]⟩ 32) :
    (⟨2, ![N, D]⟩ : Shape).Idx → EReal := fun i =>
  Ideal.div (Ideal.ofBits .f32 0x00000000#32 + ∑ e ∈ inEdges dst (i 0 : Fin N), ef (ix2 e (i 1 : Fin D)))
    (max (Ideal.ofBits .f32 0x00000000#32 + ∑ _e ∈ inEdges dst (i 0 : Fin N), Ideal.ofBits .f32 0x3F800000#32)
      (Ideal.ofBits .f32 0x3F800000#32))

end Cert.SegmentSum

end
-- ==== Proof.LibEdgeNodeLayer.lean ====
/-
  One message-passing layer with a shared two-layer perceptron, in two arrangements, and the law that joins them.

  Nodes carry the rows of a feature matrix x [N, D]. Edge e reads the row of its source node (the row number taken
  from a column `src`, clamped into the table) and sends to its destination node (taken from `dst`; an edge whose
  destination is no node is an in-edge of no node). With mlp(h) = max(h·w₁ + b₁, 0)·w₂ + b₂, applied row by row,
  the layer is mlp(x + agg), where agg(n) is the sum over the edges into n of the message of that edge.
  * Edge-wise: the message of e is mlp(x[source of e]); the perceptron is evaluated once per edge.
  * Node-wise: z = max(x·w₁ + b₁, 0) is evaluated once per node, its rows are read per edge and summed per node,
    and agg(n) = (∑ₑ z[source of e])·w₂ + deg(n)·b₂, deg(n) being the number of edges into n counted as a sum of ones.
  The arrangements agree because the first layer and the rectifier act on one row at a time, so they commute with
  reading a row, and because the second layer is affine: ∑ₑ (zₑ·w₂ + b₂) = (∑ₑ zₑ)·w₂ + (∑ₑ 1)·b₂. The last step
  distributes a product over a sum; on the extended reals that needs the entries to be real numbers, which is where
  the finiteness of the inputs is used.
-/
import Idealize.ShloMosaic.PureOps.Ideal
import Idealize.ShloMosaic.PureOps.Ideal.Laws
import Idealize.ShloMosaic.Lib.ValueIdx
import proofs.«157220_j79688823210541_2_alg».proof.Proof.LibDenseLayer
import proofs.«157220_j79688823210541_2_alg».proof.Proof.LibRowGatherScatter
import proofs.«157220_j79688823210541_2_alg».proof.Proof.LibSegmentSum

noncomputable section

open scoped BigOperators

namespace Cert.GraphLayer

open Idealize.ShloMosaic Idealize.ShloMosaic.ValueIdx
open Cert.LibDenseLayer Cert.Lib.RowGatherScatter Cert.SegmentSum

variable {N E D : Nat}

/-! ## The pieces -/

/-- Reading rows per edge: row e of the result is the row of `A` that edge e's source names. -/
def gatherRows (hN : 0 < N) (A : FVec Ideal ⟨2, ![N, D]⟩ .f32) (src : IVec ⟨2, ![E, 1]⟩ 32) :
    FVec Ideal ⟨2, ![E, D]⟩ .f32 :=
  fun i => A (ix2 (rowOf N hN src (i 0)) (i 1))

/-- Summing rows per node: entry (n, k) is zero plus the sum of `U (e, k)` over the edges into n. -/
def edgeSum (U : FVec Ideal ⟨2, ![E, D]⟩ .f32) (dst : IVec ⟨1, ![E]⟩ 32) : FVec Ideal ⟨2, ![N, D]⟩ .f32 :=
  fun i => Ideal.ofBits .f32 0x00000000#32 + ∑ e ∈ inEdges dst (i 0 : Fin N), U (ix2 e (i 1 : Fin D))

/-- The in-degree: zero plus a one for every edge into n. -/
def inDegree (dst : IVec ⟨1, ![E]⟩ 32) : FVec Ideal ⟨1, ![N]⟩ .f32 :=
  fun i => Ideal.ofBits .f32 0x00000000#32 + ∑ _e ∈ inEdges dst (i 0 : Fin N), Ideal.ofBits .f32 0x3F800000#32

/-- A matrix product with no bias: entry (r, c) is ∑ₖ A(r, k) · W(k, c). -/
def plainDot {M K P : Nat} (A : FVec Ideal ⟨2, ![M, K]⟩ .f32) (W : FVec Ideal ⟨2, ![K, P]⟩ .f32) :
    FVec Ideal ⟨2, ![M, P]⟩ .f32 :=
  fun i => ∑ k : Fin K, A (ix2 (i 0) k) * W (ix2 k (i 1))

/-- The shared perceptron, row by row: max(h·w₁ + b₁, 0)·w₂ + b₂. -/
def mlp {M : Nat} (h : FVec Ideal ⟨2, ![M, D]⟩ .f32) (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32) : FVec Ideal ⟨2, ![M, D]⟩ .f32 :=
  affine (relu (affine h w1 b1)) w2 b2

/-! ## The two arrangements -/

/-- Edge-wise: the perceptron on every edge's source row, summed per node, added to x, the perceptron again. -/
def edgeWise (hN : 0 < N) (x : FVec Ideal ⟨2, ![N, D]⟩ .f32) (src : IVec ⟨2, ![E, 1]⟩ 32) (dst : IVec ⟨1, ![E]⟩ 32)
    (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32) : FVec Ideal ⟨2, ![N, D]⟩ .f32 :=
  mlp (addf x (edgeSum (mlp (gatherRows hN x src) w1 b1 w2 b2) dst)) w1 b1 w2 b2

/-- The node-wise aggregate: (∑ₑ z[source of e])·w₂ + deg·b₂ with z = max(x·w₁ + b₁, 0). -/
def nodeAgg (hN : 0 < N) (x : FVec Ideal ⟨2, ![N, D]⟩ .f32) (src : IVec ⟨2, ![E, 1]⟩ 32) (dst : IVec ⟨1, ![E]⟩ 32)
    (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32) : FVec Ideal ⟨2, ![N, D]⟩ .f32 :=
  addf (plainDot (edgeSum (gatherRows hN (relu (affine x w1 b1)) src) dst) w2)
    (fun i => inDegree (N := N) dst (ix1 (i 0)) * b2 (ix1 (i 1)))

/-- Node-wise: x plus the node-wise aggregate, then the perceptron. -/
def nodeWise (hN : 0 < N) (x : FVec Ideal ⟨2, ![N, D]⟩ .f32) (src : IVec ⟨2, ![E, 1]⟩ 32) (dst : IVec ⟨1, ![E]⟩ 32)
    (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32) : FVec Ideal ⟨2, ![N, D]⟩ .f32 :=
  mlp (addf x (nodeAgg hN x src dst w1 b1 w2 b2)) w1 b1 w2 b2

/-! ## Real numbers inside the extended reals -/

/-- The inclusion of the reals commutes with finite sums. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a s ha ih => rw [Finset.sum_insert ha, Finset.sum_insert ha, EReal.coe_add, ih]

/-- The float word of 1.0 is the number one. -/
theorem one_word : Ideal.ofBits .f32 0x3F800000#32 = 1 := by
  simp [Ideal.ofBits, Ideal.ieee, -EReal.coe_mul]; norm_num

/-- A rectified first layer of real data is real: max(∑ₖ x(r, k)·w(k, c) + b(c), 0) is a real number. -/
theorem hidden_real {M : Nat} (x : FVec Ideal ⟨2, ![M, D]⟩ .f32) (w : FVec Ideal ⟨2, ![D, D]⟩ .f32) (b : FVec Ideal ⟨1, ![D]⟩ .f32)
    (hx : ∀ i, ∃ r : ℝ, x i = r) (hw : ∀ i, ∃ r : ℝ, w i = r) (hb : ∀ i, ∃ r : ℝ, b i = r) (i : (⟨2, ![M, D]⟩ : Shape).Idx) :
    ∃ r : ℝ, relu (affine x w b) i = r := by
  choose xr hxr using hx
  choose wr hwr using hw
  choose br hbr using hb
  refine ⟨max ((∑ k : Fin D, xr (ix2 (i 0) k) * wr (ix2 k (i 1))) + br (ix1 (i 1))) 0, ?_⟩
  show max ((∑ k : Fin D, x (ix2 (i 0) k) * w (ix2 k (i 1))) + b (ix1 (i 1))) (Ideal.ofBits .f32 0x00000000#32) = _
  simp only [hxr, hwr, hbr, Ideal.ofBits_zero_f32, ← EReal.coe_mul, ← coe_sum, ← EReal.coe_add]
  rw [← EReal.coe_zero]
  exact (EReal.coe_strictMono.monotone.map_max).symm

/-! ## The law -/

/-- Over the reals: summing affine images is the affine image of the sum, the constant taken once per summand. -/
theorem sum_affine {ι : Type} (S : Finset ι) {K : Nat} (Z : ι → Fin K → ℝ) (w : Fin K → ℝ) (b : ℝ) :
    ∑ e ∈ S, ((∑ k : Fin K, Z e k * w k) + b)
      = (∑ k : Fin K, (∑ e ∈ S, Z e k) * w k) + (∑ _e ∈ S, (1 : ℝ)) * b := by
  rw [Finset.sum_add_distrib, Finset.sum_comm]
  congr 1
  · exact Finset.sum_congr rfl fun k _ => (Finset.sum_mul S (fun e => Z e k) (w k)).symm
  · rw [Finset.sum_mul]
    exact Finset.sum_congr rfl fun _ _ => (one_mul b).symm

/-- The same for real numbers viewed as extended reals, each sum started from zero as the programs start it. -/
theorem sum_affine_coe {ι : Type} (S : Finset ι) {K : Nat} (Z : ι → Fin K → ℝ) (w : Fin K → ℝ) (b : ℝ) :
    (0 : EReal) + ∑ e ∈ S, ((∑ k : Fin K, ((Z e k : ℝ) : EReal) * ((w k : ℝ) : EReal)) + ((b : ℝ) : EReal))
      = (∑ k : Fin K, ((0 : EReal) + ∑ e ∈ S, ((Z e k : ℝ) : EReal)) * ((w k : ℝ) : EReal))
        + ((0 : EReal) + ∑ _e ∈ S, (1 : EReal)) * ((b : ℝ) : EReal) := by
  have h1 : (∑ _e ∈ S, (1 : EReal)) = ((∑ _e ∈ S, (1 : ℝ) : ℝ) : EReal) := by
    rw [coe_sum]; simp only [EReal.coe_one]
  simp only [zero_add, h1, ← EReal.coe_mul, ← coe_sum, ← EReal.coe_add]
  exact congrArg _ (sum_affine S Z w b)

/-- THE AGGREGATES AGREE on real data: per node, the sum of the edges' perceptron values is the node-wise aggregate. -/
theorem edgeSum_mlp_eq_nodeAgg (hN : 0 < N) (x : FVec Ideal ⟨2, ![N, D]⟩ .f32) (src : IVec ⟨2, ![E, 1]⟩ 32)
    (dst : IVec ⟨1, ![E]⟩ 32) (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32)
    (hx : ∀ i, ∃ r : ℝ, x i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r) :
    edgeSum (N := N) (mlp (gatherRows hN x src) w1 b1 w2 b2) dst = nodeAgg hN x src dst w1 b1 w2 b2 := by
  funext i
  obtain ⟨n, d, rfl⟩ : ∃ (n : Fin N) (d : Fin D), i = ix2 n d := ⟨i 0, i 1, eq_ix2 i⟩
  choose zr hzr using hidden_real x w1 b1 hx hw1 hb1
  choose w2r hw2r using hw2
  choose b2r hb2r using hb2
  show Ideal.ofBits .f32 0x00000000#32 + ∑ e ∈ inEdges dst n,
        ((∑ k : Fin D, relu (affine x w1 b1) (ix2 (rowOf N hN src e) k) * w2 (ix2 k d)) + b2 (ix1 d))
      = (∑ k : Fin D, (Ideal.ofBits .f32 0x00000000#32
            + ∑ e ∈ inEdges dst n, relu (affine x w1 b1) (ix2 (rowOf N hN src e) k)) * w2 (ix2 k d))
        + (Ideal.ofBits .f32 0x00000000#32 + ∑ _e ∈ inEdges dst n, Ideal.ofBits .f32 0x3F800000#32) * b2 (ix1 d)
  simp only [hzr, hw2r, hb2r, Ideal.ofBits_zero_f32, one_word]
  exact sum_affine_coe (inEdges dst n) (fun e k => zr (ix2 (rowOf N hN src e) k)) (fun k => w2r (ix2 k d)) (b2r (ix1 d))

/-- THE ARRANGEMENTS AGREE on real data. -/
theorem edgeWise_eq_nodeWise (hN : 0 < N) (x : FVec Ideal ⟨2, ![N, D]⟩ .f32) (src : IVec ⟨2, ![E, 1]⟩ 32)
    (dst : IVec ⟨1, ![E]⟩ 32) (w1 : FVec Ideal ⟨2, ![D, D]⟩ .f32) (b1 : FVec Ideal ⟨1, ![D]⟩ .f32)
    (w2 : FVec Ideal ⟨2, ![D, D]⟩ .f32) (b2 : FVec Ideal ⟨1, ![D]⟩ .f32)
    (hx : ∀ i, ∃ r : ℝ, x i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r) :
    edgeWise hN x src dst w1 b1 w2 b2 = nodeWise hN x src dst w1 b1 w2 b2 := by
  unfold edgeWise nodeWise
  rw [edgeSum_mlp_eq_nodeAgg hN x src dst w1 b1 w2 b2 hx hw1 hb1 hw2 hb2]

end Cert.GraphLayer

end
-- ==== Proof.LibVecGatherScatter.lean ====
/-
  Gather and scatter-add of a vector, read at an index.

  For a vector `x : [N]` and a column of integer positions `idx : [E, 1]`:
  * the gather `x[idx]` (result `[E]`) has element `e` equal to `x` at position `idx[e, 0]` — read as a signed integer
    and clamped into `[0, N − 1]`;
  * the scatter-add of updates `upd : [E]` into `x` has element `n` equal to `x n` plus the sum of `upd e` over those `e`
    whose position `idx[e, 0]`, read as a signed integer and NOT clamped, is `n`.
  The position function and the set of contributing `e` are the ones of the row forms (a 2-D array gathered or
  scattered by rows), so a vector and a matrix indexed by the same column are indexed alike.
  General in `N` and `E`.
-/
import Idealize.ShloMosaic.PureOps.Ideal
import Idealize.ShloMosaic.Lib.ValueIdx
import proofs.«157220_j79688823210541_2_alg».proof.Proof.LibRowGatherScatter

noncomputable section

open scoped BigOperators

namespace Cert.Lib.VecGatherScatter

open Idealize.ShloMosaic Idealize.ShloMosaic.ValueIdx Cert.Lib.RowGatherScatter

/-! ## Rank-one indices -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The dimension numbers -/

/-- The gather's dimension numbers for an operand `[N]`, start indices `[E, 1]` and result `[E]`: no offset axis, the
    operand's one axis collapsed and named by the start index; the index vector lies along axis 1 of the start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scatter's dimension numbers for an operand `[N]`, scatter indices `[E, 1]` and updates `[E]`: no window axis,
    the operand's one axis inserted and named by the scatter index. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gather read at an index -/

section Gather
variable {α : Type}

/-- The start-indices index the gather reads for result index `e`: `[e, 0]`. -/
theorem gather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simpa using this

/-- THE GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf N hN idx e)) := by
  unfold Host.gather
  congr 1
  funext a; refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    rw [gather_siIdx]
    rfl

end Gather

/-! ## The scatter-add read at an index -/

section Scatter

variable {N E w : Nat} (wf : ScatterDims.WF ⟨1, ![N]⟩ ⟨2, ![E, 1]⟩ ⟨1, ![E]⟩ [] [0] [0] 1)

/-- The scatter-indices index the scatter reads for update index `e`: `[e, 0]`. -/
theorem scatter_siIdx (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simpa using this

/-- The start is the scatter index `idx[e, 0]`, read signed and not clamped. -/
theorem scatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [scatter_siIdx]

/-- The one axis is inserted: no window coordinate. -/
theorem scatter_window0 (e : Fin E) : (vecScatterDims N E wf).window (ix1 e) 0 = 0 := by
  unfold ScatterDims.window
  rw [dif_neg]
  simp [ScatterDims.sKept, Shape.kept]

/-- WHERE AN UPDATE LANDS: update `e` lands on operand element `n` exactly when its scatter index `idx[e, 0]`, read as a
    signed integer, is `n`. -/
theorem resultIdx?_eq_some_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  rw [resultIdx?_eq_some_iff_forall]
  refine (Fin.forall_fin_one (p := fun a => (vecScatterDims N E wf).start (ix1 e) idx a
    + ((vecScatterDims N E wf).window (ix1 e) a : Int) = (((ix1 n : (⟨1, ![N]⟩ : Shape).Idx) a).val : Int))).trans ?_
  rw [scatter_start0, scatter_window0]
  show (idx (ix2 e (0 : Fin 1))).toInt + ((0 : Nat) : Int) = (n.val : Int) ↔ _
  constructor
  · intro h; omega
  · intro h; omega

/-- THE SCATTER-ADD READ AT `n`: the operand's element plus the sum of the updates `e` whose scatter index `idx[e, 0]`,
    read as a signed integer and not clamped, is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [resultIdx?_eq_some_iff]

end Scatter

/-! ## The same four readings for ANY record with these dimension numbers

A printed program names its dimension records; each is one of the four forms above. Stated over a record `d` and the
equation `d = …Dims …`, the readings apply to the host operation as printed, and the only comparison of records is
that equation, by itself. -/

section AnyRecord

theorem hostGather_vec_apply {α : Type} {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) = x (ix1 (rowOf N hN idx e)) := by
  subst hd; exact gather_vec_apply hN wf x idx e

theorem hostGather_rows_apply {α : Type} {N D E w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowGatherDims N D E wf)
    (x : (⟨2, ![N, D]⟩ : Shape).Idx → α) (idx : IVec ⟨2, ![E, 1]⟩ w) (e : Fin E) (k : Fin D) :
    Host.gather d x idx (ix2 e k) = x (ix2 (rowOf N hN idx e) k) := by
  subst hd; exact gather_rows_apply hN wf x idx e k

theorem hostScatterAdd_vec_apply {N E w : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecScatterDims N E wf)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : Int)),
          upd (ix1 e) := by
  subst hd; exact scatterAdd_vec_apply wf x idx upd n

theorem hostScatterAdd_rows_apply {N D E w : Nat}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatterDims N D E wf)
    (x : FVec Ideal ⟨2, ![N, D]⟩ .f32) (idx : IVec ⟨2, ![E, 1]⟩ w) (upd : FVec Ideal ⟨2, ![E, D]⟩ .f32)
    (n : Fin N) (k : Fin D) :
    Host.scatterAdd (F := Ideal) d x idx upd (ix2 n k)
      = x (ix2 n k) + ∑ e ∈ Finset.univ.filter (fun e : Fin E => (idx (ix2 e (0 : Fin 1))).toInt = (n.val : Int)),
          upd (ix2 e k) := by
  subst hd; exact scatterAdd_rows_apply wf x idx upd n k

end AnyRecord

end Cert.Lib.VecGatherScatter

end
-- ==== Proof.ReferenceEdgeWise.lean ====
/-
  The reference program computes the edge-wise arrangement of the layer.

  Its stages, in program order: the rows of x read per edge (the source column is the second row of the edge table,
  a negative entry moved up by the number of nodes, laid out as a column); the first layer and the rectifier on those
  rows; the second layer; the per-node sums of the results by the first row of the edge table, started from zeros;
  x plus those sums; and the perceptron once more. Each stage is one of the pieces of the layer's definition, so the
  reference's result is `edgeWise` of its arguments, whatever they hold.
-/
import proofs.«157220_j79688823210541_2_alg».proof.Proof.Gen.ReferenceIdeal.Read
import proofs.«157220_j79688823210541_2_alg».proof.Proof.LibEdgeNodeLayer
import proofs.«157220_j79688823210541_2_alg».proof.Proof.LibVecGatherScatter

noncomputable section

namespace Cert.ReferenceIdeal.EdgeWise

open Cert.ReferenceIdeal Cert.ReferenceIdeal.Gen Cert.ReferenceIdeal.Read
open Idealize.ShloMosaic Idealize.ShloMosaic.ValueIdx
open Cert.GraphLayer Cert.LibDenseLayer Cert.SegmentSum Cert.Lib.RowGatherScatter Cert.Lib.VecGatherScatter

/-- There is at least one node. -/
theorem nodes_pos : 0 < 10000 := by norm_num

variable (x0 : (⟨S10000x256, .f32⟩ : BufTy).Contents (Elt Ideal)) (x1 : (⟨S2x320000, .i32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The gather reads, per edge, the row of x its source names. -/
theorem rows_read : val_main_v10 (F := Ideal) x0 x1 = gatherRows nodes_pos x0 (val_main_v9 (F := Ideal) x1) := by
  funext i
  obtain ⟨e, k, rfl⟩ : ∃ (e : Fin 320000) (k : Fin 256), i = ix2 e k := ⟨i 0, i 1, eq_ix2 i⟩
  exact hostGather_rows_apply nodes_pos gather_S10000x256_S320000x1_S320000x256_1_0_n_n_0_1_1256_wf _ rfl x0
    (val_main_v9 (F := Ideal) x1) e k

/-- The first layer on the edges' source rows. -/
theorem edge_first : val_main_v14 (F := Ideal) x0 x1 x2 x3
    = affine (gatherRows nodes_pos x0 (val_main_v9 (F := Ideal) x1)) x2 x3 := by
  unfold val_main_v14 val_main_v11 val_main_v13 val_main_v12
  rw [rows_read]
  exact dot_bias dot_S320000x256_S256x256_S320000x256_1_0_0_1_n_n_wf bcast_S256_S1x256_1 bcast_S1x256_S320000x256_0_1 _ x2 x3

/-- … rectified. -/
theorem edge_hidden : val_main_v15 (F := Ideal) x0 x1 x2 x3
    = relu (affine (gatherRows nodes_pos x0 (val_main_v9 (F := Ideal) x1)) x2 x3) := by
  unfold val_main_v15 val_main_call0_v0 val_main_call0_cst
  rw [edge_first]
  exact max_bcast bcast_S_S320000x256 _

/-- The message of every edge: the perceptron on its source row. -/
theorem edge_message : val_main_v19 (F := Ideal) x0 x1 x2 x3 x4 x5
    = mlp (gatherRows nodes_pos x0 (val_main_v9 (F := Ideal) x1)) x2 x3 x4 x5 := by
  unfold val_main_v19 val_main_v16 val_main_v18 val_main_v17
  rw [edge_hidden]
  exact dot_bias dot_S320000x256_S256x256_S320000x256_1_0_0_1_n_n_wf bcast_S256_S1x256_1 bcast_S1x256_S320000x256_0_1 _ x4 x5

/-- The messages summed per destination node. -/
theorem messages_summed : val_main_v22 (F := Ideal) x0 x1 x2 x3 x4 x5
    = edgeSum (N := 10000) (mlp (gatherRows nodes_pos x0 (val_main_v9 (F := Ideal) x1)) x2 x3 x4 x5)
        (val_main_v1 (F := Ideal) x1) := by
  funext i
  obtain ⟨n, d, rfl⟩ : ∃ (n : Fin 10000) (d : Fin 256), i = ix2 n d := ⟨i 0, i 1, eq_ix2 i⟩
  unfold val_main_v22 val_main_v20 val_main_cst val_main_v21
  rw [edge_message]
  exact rows_apply scatter_S10000x256_S320000x1_S320000x256_1_0_0_1_wf bcast_S_S10000x256 bcast_S320000_S320000x1_0
    (val_main_v1 (F := Ideal) x1) _ n d

/-- A layer over the nodes, in the reference's spelling. -/
theorem node_layer (h : FVec Ideal S10000x256 .f32) (w : FVec Ideal S256x256 .f32) (b : FVec Ideal S256 .f32) :
    addf (Host.dotGeneral dot_S10000x256_S256x256_S10000x256_1_0_0_1_n_n none h w)
      (broadcastInDim S10000x256 ![0, 1] bcast_S1x256_S10000x256_0_1 (broadcastInDim S1x256 ![1] bcast_S256_S1x256_1 b))
      = affine h w b :=
  dot_bias dot_S10000x256_S256x256_S10000x256_1_0_0_1_n_n_wf bcast_S256_S1x256_1 bcast_S1x256_S10000x256_0_1 h w b

/-- The rectifier over the nodes, in the reference's spelling. -/
theorem node_relu (v : FVec Ideal S10000x256 .f32) :
    maximumf v (broadcastInDim S10000x256 ![] bcast_S_S10000x256 (constant (F := Ideal) S_ .f32 0x00000000#32)) = relu v :=
  max_bcast bcast_S_S10000x256 v

/-- THE REFERENCE'S RESULT is the edge-wise arrangement of the layer. -/
theorem result_eq : val_main_v32 (F := Ideal) x0 x1 x2 x3 x4 x5
    = edgeWise nodes_pos x0 (val_main_v9 (F := Ideal) x1) (val_main_v1 (F := Ideal) x1) x2 x3 x4 x5 := by
  unfold val_main_v32 val_main_v29 val_main_v31 val_main_v30 val_main_v28 val_main_call1_v0 val_main_call1_cst
    val_main_v27 val_main_v24 val_main_v26 val_main_v25 val_main_v23
  rw [messages_summed, node_layer, node_relu, node_layer]
  rfl

end Cert.ReferenceIdeal.EdgeWise

end
-- ==== Proof.KernelRun.lean ====
/-
  The idealized kernel's run, with its result named.

  @main is four segments: the host operations before the first kernel, the first kernel's grid, the host operations
  between the kernels, the second kernel's grid. Every weakly fair execution goes through them in order, and at the end
  each buffer holds the contents the segments' fold gives it. The result buffer is the second kernel's output array, so it
  ends at what that kernel's write-backs leave: the array assembled from the blocks its grid points wrote. The arguments
  end as launched.
-/
import proofs.«157220_j79688823210541_2_alg».proof.Proof.Gen.KernelIdeal.Frame

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the second kernel's
    output array as its write-backs leave it, and every argument as launched. -/
theorem run : θ_run defs (onTc (τ := τ) (main (F := F))) ⟨m, fun _ => 0, ρ⟩ (fun r => ∀ c : Dev nD,
      r.2.mem ((c.tc : Thread nD τ).loc main_v29) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v29 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Result

end
-- ==== Proof.NodeHidden.lean ====
/-
  The first kernel: z = max(x·w₁ + b₁, 0), 400 rows per grid point.

  At grid point t the body reads rows 400t … 400t + 399 of the node features, the whole first weight matrix and the whole
  first bias, and stores the rectified first layer of those rows into the same rows of its output. A layer reads its
  operand one row at a time, so those rows of the output are the same rows of the rectified first layer of all the node
  features. The 25 blocks tile the 10000 rows, so the output array ends holding that layer whole. Everything is stated over
  the contents `V` of the buffers when the kernel is entered.
-/
import proofs.«157220_j79688823210541_2_alg».proof.Proof.Gen.KernelIdeal.Frame
import Idealize.ShloMosaic.Lib.Pipeline.Value
import Idealize.ShloMosaic.Lib.ValueLayout
import proofs.«157220_j79688823210541_2_alg».proof.Proof.LibDenseLayer

noncomputable section

namespace Cert.KernelIdeal.NodeHidden

open Cert.KernelIdeal Cert.KernelIdeal.Gen
open Idealize.ShloMosaic Idealize.ShloMosaic.TcCoe Idealize.SL.Sem Idealize.ShloMosaic.ValueIdx
open Idealize.ShloMosaic.Pipeline (Dat)
open Cert.LibDenseLayer

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The body on its blocks: the rectified first layer of the block of rows. -/
theorem body_eq (x0 : Vec Ideal S400x256 .bf16) (x1 : Vec Ideal S256x256 .bf16) (x2 : Vec Ideal S256 .f32) :
    k0_pay1 (F := Ideal) x0 x1 x2 = relu (affine (M := 400) (K := 256) (N := 256) x0 x1 x2) := by
  unfold k0_pay1
  dsimp only
  rw [shapeCast_self, shapeCast_self]
  exact (congrArg (fun v => maximumf v (broadcast S400x256 (Scalar.ofBits (F := Ideal) .f32 0x00000000#32)))
    (matmul_bias dot_S400x256_S256x256_S400x256_1_0_0_1_n_n_wf bitsLt_bf16_f32 broadcasts_S1x256_S400x256 x0 x1
      (shapeCast S1x256 x2 shapeCasts_S256_S1x256) x2
      (fun c => shapeCast_a_1a_apply x2 shapeCasts_S256_S1x256 0 c))).trans (max_splat _)

/-- The rectified first layer of all the node features as the kernel finds them. -/
abbrev hidden (c : Dev nD) : FVec Ideal S10000x256 .f32 :=
  relu (affine (M := 10000) (K := 256) (N := 256) (V c main_v4 : S10000x256.Idx → EReal) (V c main_v5 : S256x256.Idx → EReal)
    (V c main_arg3 : S256.Idx → EReal))

/-- The printed index maps over the 25 grid points: the features' and the output's block index is the point, the
    weight's and the bias's is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 25 := lt_of_lt_of_eq t.isLt N_0

/-- The features' block at point t is rows 400t … 400t + 399 of the array. -/
theorem rows_block (c : Dev nD) (t : Fin cfg0.N) (p : Fin 400) (k : Fin 256) :
    (iblk0 V c 0 t : S400x256.Idx → EReal) (ix2 p k)
      = (V c main_v4 : S10000x256.Idx → EReal) (ix2 ⟨400 * t.val + p.val, by have := point_lt t; have := p.isLt; omega⟩ k) := by
  obtain ⟨e0, e1, -⟩ := index_facts t
  unfold iblk0
  rw [View.read_apply]
  show V c main_v4 _ = V c main_v4 _
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 256 + 1 * k.val = k.val; rw [e1]; omega

/-- The weight's block at every point is the whole matrix. -/
theorem weight_block (c : Dev nD) (t : Fin cfg0.N) : (iblk0 V c 1 t : S256x256.Idx → EReal) = V c main_v5 := by
  obtain ⟨-, -, e0, e1, -⟩ := index_facts t
  funext y
  unfold iblk0
  rw [View.read_apply]
  show V c main_v5 _ = V c main_v5 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias's block at every point is the whole vector. -/
theorem bias_block (c : Dev nD) (t : Fin cfg0.N) : (iblk0 V c 2 t : S256.Idx → EReal) = V c main_arg3 := by
  obtain ⟨-, -, -, -, e0, -⟩ := index_facts t
  funext y
  unfold iblk0
  rw [View.read_apply]
  show V c main_arg3 _ = V c main_arg3 y
  congr 1
  funext a
  apply Fin.ext
  match a with
  | ⟨0, _⟩ => show win0_2.index t (0 : Fin 1) * 256 + 1 * (y 0).val = (y 0).val; rw [e0]; omega

/-- WHAT POINT t WRITES BACK is its block of the rectified first layer of all the features. -/
theorem flushed_eq (c : Dev nD) (t : Fin cfg0.N) :
    (dat0 V c).flushed 3 t = ((cfg0.win 3).blk t).view.read (Elt Ideal) (hidden V c) := by
  obtain ⟨-, -, -, -, -, e0, e1⟩ := index_facts t
  show (cfg0.win 3).cut (grid0.coords t) ((dat0 V c).after 3 t) = _
  rw [after0_3]
  unfold out0_3
  rw [View.canon_unit_zero off2]
  simp only [View.ld_unit_zero (S := S400x256) off2, View.ld_unit_zero (S := S256x256) off2, View.ld_unit_zero (S := S256) off1]
  rw [body_eq, weight_block V c t, bias_block V c t]
  funext j
  obtain ⟨p, q, rfl⟩ : ∃ (p : Fin 400) (q : Fin 256), j = ix2 p q := ⟨j 0, j 1, eq_ix2 j⟩
  have hemb : ((cfg0.win 3).blk t).view.emb (ix2 p q)
      = (ix2 ⟨400 * t.val + p.val, by have := point_lt t; have := p.isLt; omega⟩ q : S10000x256.Idx) := by
    funext a
    apply Fin.ext
    match a with
    | ⟨0, _⟩ => show win0_3.index t (0 : Fin 2) * 400 + 1 * p.val = 400 * t.val + p.val; rw [e0]; omega
    | ⟨1, _⟩ => show win0_3.index t (1 : Fin 2) * 256 + 1 * q.val = q.val; rw [e1]; omega
  rw [View.read_apply, hemb]
  show max (affine (iblk0 V c 0 t : S400x256.Idx → EReal) (V c main_v5 : S256x256.Idx → EReal) (V c main_arg3 : S256.Idx → EReal) (ix2 p q)) _
    = max (affine (V c main_v4 : S10000x256.Idx → EReal) (V c main_v5 : S256x256.Idx → EReal) (V c main_arg3 : S256.Idx → EReal)
        (ix2 ⟨400 * t.val + p.val, by have := point_lt t; have := p.isLt; omega⟩ q)) _
  refine congrArg (max · _) (affine_rows (off := 400 * t.val) (by have := point_lt t; omega) _ _ _ _ p q fun k => ?_).symm
  exact rows_block V c t p k

/-- An index is in point t's block iff its row is among that block's 400 and its column among the 256. -/
theorem mem_blk (t : Fin cfg0.N) (i : S10000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v7).slice (win0_3.rect t)).set ↔ _
  rw [View.set_slice_whole, Rect.mem_set_unit]
  exact Iff.rfl

/-- The 25 blocks tile the rows: row r is in the block of point r / 400. -/
theorem covered (i : S10000x256.Idx) :
    ∃ t : Fin cfg0.N, (cfg0.win 3).flush t = true ∧ i ∈ ((cfg0.win 3).blk t).view.set := by
  have h0 : (i 0).val < 10000 := (i 0).isLt
  have h1 : (i 1).val < 256 := (i 1).isLt
  let t : Fin cfg0.N := ⟨(i 0).val / 400, by rw [show cfg0.N = 25 from N_0]; omega⟩
  obtain ⟨-, -, -, -, -, e0, e1⟩ := index_facts t
  refine ⟨t, flush0_3 t, ?_⟩
  rw [mem_blk]
  intro a
  match a with
  | ⟨0, _⟩ =>
    show win0_3.index t (0 : Fin 2) * 400 ≤ (i 0).val ∧ (i 0).val < win0_3.index t (0 : Fin 2) * 400 + 400
    rw [e0]
    show (i 0).val / 400 * 400 ≤ (i 0).val ∧ (i 0).val < (i 0).val / 400 * 400 + 400
    omega
  | ⟨1, _⟩ =>
    show win0_3.index t (1 : Fin 2) * 256 ≤ (i 1).val ∧ (i 1).val < win0_3.index t (1 : Fin 2) * 256 + 256
    rw [e1]
    omega

/-- THE OUTPUT ARRAY after the grid: the rectified first layer of all the node features. -/
theorem array_eq (c : Dev nD) : (dat0 V c).arrAt 3 cfg0.N = hidden V c :=
  (dat0 V c).arrAt_eq_of_cover 3 (hidden V c) (fun t _ => flushed_eq V c t) covered

end Cert.KernelIdeal.NodeHidden

end
-- ==== Proof.NodeUpdate.lean ====
/-
  The second kernel: out = mlp(x + (s·w₂ + g)), 400 rows per grid point, where s holds the per-node sums of the
  gathered hidden rows, g the per-node degree times the second bias, and mlp(h) = max(h·w₁ + b₁, 0)·w₂ + b₂.

  At grid point t the body reads rows 400t … 400t + 399 of x, of s and of g, and both weight matrices and both biases
  whole; it forms s·w₂ + g, adds x, applies the perceptron and stores the result into the same rows of its output. Every
  stage reads its operand one row at a time, so those rows of the output are the same rows of the whole-array expression.
  The 25 blocks tile the 10000 rows. Everything is stated over the contents `V` of the buffers when the kernel is entered.
-/
import proofs.«157220_j79688823210541_2_alg».proof.Proof.Gen.KernelIdeal.Frame
import Idealize.ShloMosaic.Lib.Pipeline.Value
import Idealize.ShloMosaic.Lib.ValueLayout
import proofs.«157220_j79688823210541_2_alg».proof.Proof.LibEdgeNodeLayer

noncomputable section

namespace Cert.KernelIdeal.NodeUpdate

open Cert.KernelIdeal Cert.KernelIdeal.Gen
open Idealize.ShloMosaic Idealize.ShloMosaic.TcCoe Idealize.SL.Sem Idealize.ShloMosaic.ValueIdx
open Idealize.ShloMosaic.Pipeline (Dat)
open Cert.LibDenseLayer Cert.GraphLayer

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-! ## The body's stages in the kernel's spelling -/

/-- A product accumulated from zero. -/
theorem block_dot (a : FVec Ideal S400x256 .bf16) (w : FVec Ideal S256x256 .bf16) :
    matmul dot_S400x256_S256x256_S400x256_1_0_0_1_n_n none a w (constant (F := Ideal) S400x256 .f32 0x00000000#32)
      = plainDot (M := 400) (K := 256) (P := 256) a w := by
  funext i
  obtain ⟨r, c, rfl⟩ : ∃ (r : Fin 400) (c : Fin 256), i = ix2 r c := ⟨i 0, i 1, eq_ix2 i⟩
  exact LibPlainDot.matmul_zero_apply dot_S400x256_S256x256_S400x256_1_0_0_1_n_n_wf none a w r c

/-- A layer: the product accumulated from zero of the operand passed through the change of float format, plus the bias
    laid out as a row and repeated down the rows. -/
theorem block_layer (h : FVec Ideal S400x256 .f32) (w : FVec Ideal S256x256 .bf16) (b : FVec Ideal S256 .f32) :
    addf (matmul dot_S400x256_S256x256_S400x256_1_0_0_1_n_n none (truncf .bf16 h bitsLt_bf16_f32) w
        (constant (F := Ideal) S400x256 .f32 0x00000000#32))
      (broadcastTo S400x256 (shapeCast S1x256 b shapeCasts_S256_S1x256) broadcasts_S1x256_S400x256)
      = affine (M := 400) (K := 256) (N := 256) h w b :=
  matmul_bias dot_S400x256_S256x256_S400x256_1_0_0_1_n_n_wf bitsLt_bf16_f32 broadcasts_S1x256_S400x256 h w
    (shapeCast S1x256 b shapeCasts_S256_S1x256) b (fun c => shapeCast_a_1a_apply b shapeCasts_S256_S1x256 0 c)

/-- The rectifier. -/
theorem block_relu (v : FVec Ideal S400x256 .f32) :
    maximumf v (broadcast S400x256 (Scalar.ofBits (F := Ideal) .f32 0x00000000#32)) = relu v := max_splat v

/-- THE BODY on its blocks: the perceptron of x + (s·w₂ + g) over the block of rows. -/
theorem body_eq (s : Vec Ideal S400x256 .bf16) (w2 : Vec Ideal S256x256 .bf16) (g : Vec Ideal S400x256 .f32)
    (x : Vec Ideal S400x256 .f32) (w1 : Vec Ideal S256x256 .bf16) (b1 : Vec Ideal S256 .f32) (b2 : Vec Ideal S256 .f32) :
    k1_pay1 (F := Ideal) s w2 g x w1 b1 b2
      = mlp (M := 400) (D := 256) (addf x (addf (plainDot (M := 400) (K := 256) (P := 256) s w2) g)) w1 b1 w2 b2 := by
  unfold k1_pay1
  dsimp only
  simp only [shapeCast_self]
  simp only [block_layer, block_relu]
  simp only [block_dot]
  rfl

/-! ## The whole-array expression and its row blocks -/

/-- The update of all the nodes from the contents the kernel finds. -/
abbrev update (c : Dev nD) : FVec Ideal S10000x256 .f32 :=
  mlp (M := 10000) (D := 256)
    (addf (V c main_arg0 : S10000x256.Idx → EReal)
      (addf (plainDot (M := 10000) (K := 256) (P := 256) (V c main_v28 : S10000x256.Idx → EReal) (V c main_v6 : S256x256.Idx → EReal))
        (V c main_v27 : S10000x256.Idx → EReal)))
    (V c main_v5 : S256x256.Idx → EReal) (V c main_arg3 : S256.Idx → EReal)
    (V c main_v6 : S256x256.Idx → EReal) (V c main_arg5 : S256.Idx → EReal)

/-- ROW BLOCKS: entry (off + p, q) of the whole-array expression is entry (p, q) of the same expression over the
    blocks of rows off … off + 400 of x, s and g. -/
theorem update_rows {off : Nat} (hB : off + 400 ≤ 10000)
    (X S G : FVec Ideal S10000x256 .f32) (x s g : FVec Ideal S400x256 .f32)
    (w1 : FVec Ideal S256x256 .f32) (b1 : FVec Ideal S256 .f32) (w2 : FVec Ideal S256x256 .f32) (b2 : FVec Ideal S256 .f32)
    (p : Fin 400) (q : Fin 256)
    (hx : ∀ k : Fin 256, x (ix2 p k) = X (ix2 ⟨off + p.val, by have := p.isLt; omega⟩ k))
    (hs : ∀ k : Fin 256, s (ix2 p k) = S (ix2 ⟨off + p.val, by have := p.isLt; omega⟩ k))
    (hg : ∀ k : Fin 256, g (ix2 p k) = G (ix2 ⟨off + p.val, by have := p.isLt; omega⟩ k)) :
    mlp (M := 400) (D := 256) (addf x (addf (plainDot (M := 400) (K := 256) (P := 256) s w2) g)) w1 b1 w2 b2 (ix2 p q)
      = mlp (M := 10000) (D := 256) (addf X (addf (plainDot (M := 10000) (K := 256) (P := 256) S w2) G)) w1 b1 w2 b2
          (ix2 ⟨off + p.val, by have := p.isLt; omega⟩ q) := by
  unfold mlp
  refine (affine_rows hB _ _ w2 b2 p q fun k => ?_).symm
  show max (affine (addf x (addf (plainDot s w2) g)) w1 b1 (ix2 p k)) _
    = max (affine (addf X (addf (plainDot S w2) G)) w1 b1 (ix2 ⟨off + p.val, by have := p.isLt; omega⟩ k)) _
  refine congrArg (max · _) (affine_rows hB _ _ w1 b1 p k fun j => ?_).symm
  show x (ix2 p j) + ((∑ i : Fin 256, s (ix2 p i) * w2 (ix2 i j)) + g (ix2 p j))
    = X (ix2 ⟨off + p.val, by have := p.isLt; omega⟩ j)
      + ((∑ i : Fin 256, S (ix2 ⟨off + p.val, by have := p.isLt; omega⟩ i) * w2 (ix2 i j))
        + G (ix2 ⟨off + p.val, by have := p.isLt; omega⟩ j))
  rw [hx j, hg j]
  simp only [hs]

/-! ## The windows' blocks -/

/-- The printed index maps over the 25 grid points: the block index of x, s, g and the output is the point, that of
    the weights and the biases is zero. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = t.val ∧ win1_7.index t (1 : Fin 2) = 0 :=
  (by decide +kernel : ∀ t : Fin grid1.N, _)

theorem point_lt (t : Fin cfg1.N) : t.val < 25 := lt_of_lt_of_eq t.isLt N_1

/-- x's block at point t is rows 400t … 400t + 399 of the array. -/
theorem x_block (c : Dev nD) (t : Fin cfg1.N) (p : Fin 400) (k : Fin 256) :
    (iblk1 V c 0 t : S400x256.Idx → EReal) (ix2 p k)
      = (V c main_arg0 : S10000x256.Idx → EReal) (ix2 ⟨400 * t.val + p.val, by have := point_lt t; have := p.isLt; omega⟩ k) := by
  obtain ⟨e0, e1, -⟩ := index_facts t
  unfold iblk1
  rw [View.read_apply]
  show V c main_arg0 _ = V c main_arg0 _
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 256 + 1 * k.val = k.val; rw [e1]; omega

/-- s's block likewise. -/
theorem s_block (c : Dev nD) (t : Fin cfg1.N) (p : Fin 400) (k : Fin 256) :
    (iblk1 V c 1 t : S400x256.Idx → EReal) (ix2 p k)
      = (V c main_v28 : S10000x256.Idx → EReal) (ix2 ⟨400 * t.val + p.val, by have := point_lt t; have := p.isLt; omega⟩ k) := by
  obtain ⟨-, -, e0, e1, -⟩ := index_facts t
  unfold iblk1
  rw [View.read_apply]
  show V c main_v28 _ = V c main_v28 _
  congr 1
  funext a
  apply Fin.ext
  match a with
  | ⟨0, _⟩ => show win1_1.index t (0 : Fin 2) * 400 + 1 * p.val = 400 * t.val + p.val; rw [e0]; omega
  | ⟨1, _⟩ => show win1_1.index t (1 : Fin 2) * 256 + 1 * k.val = k.val; rw [e1]; omega

/-- g's block likewise. -/
theorem g_block (c : Dev nD) (t : Fin cfg1.N) (p : Fin 400) (k : Fin 256) :
    (iblk1 V c 2 t : S400x256.Idx → EReal) (ix2 p k)
      = (V c main_v27 : S10000x256.Idx → EReal) (ix2 ⟨400 * t.val + p.val, by have := point_lt t; have := p.isLt; omega⟩ k) := by
  obtain ⟨-, -, -, -, e0, e1, -⟩ := index_facts t
  unfold iblk1
  rw [View.read_apply]
  show V c main_v27 _ = V c main_v27 _
  congr 1
  funext a
  apply Fin.ext
  match a with
  | ⟨0, _⟩ => show win1_2.index t (0 : Fin 2) * 400 + 1 * p.val = 400 * t.val + p.val; rw [e0]; omega
  | ⟨1, _⟩ => show win1_2.index t (1 : Fin 2) * 256 + 1 * k.val = k.val; rw [e1]; omega

/-- The first weight's block at every point is the whole matrix. -/
theorem w1_block (c : Dev nD) (t : Fin cfg1.N) : (iblk1 V c 3 t : S256x256.Idx → EReal) = V c main_v5 := by
  obtain ⟨-, -, -, -, -, -, e0, e1, -⟩ := index_facts t
  funext y
  unfold iblk1
  rw [View.read_apply]
  show V c main_v5 _ = V c main_v5 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The first bias's block is the whole vector. -/
theorem b1_block (c : Dev nD) (t : Fin cfg1.N) : (iblk1 V c 4 t : S256.Idx → EReal) = V c main_arg3 := by
  obtain ⟨-, -, -, -, -, -, -, -, e0, -⟩ := index_facts t
  funext y
  unfold iblk1
  rw [View.read_apply]
  show V c main_arg3 _ = V c main_arg3 y
  congr 1
  funext a
  apply Fin.ext
  match a with
  | ⟨0, _⟩ => show win1_4.index t (0 : Fin 1) * 256 + 1 * (y 0).val = (y 0).val; rw [e0]; omega

/-- The second weight's block is the whole matrix. -/
theorem w2_block (c : Dev nD) (t : Fin cfg1.N) : (iblk1 V c 5 t : S256x256.Idx → EReal) = V c main_v6 := by
  obtain ⟨-, -, -, -, -, -, -, -, -, e0, e1, -⟩ := index_facts t
  funext y
  unfold iblk1
  rw [View.read_apply]
  show V c main_v6 _ = V c main_v6 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega

/-- The second bias's block is the whole vector. -/
theorem b2_block (c : Dev nD) (t : Fin cfg1.N) : (iblk1 V c 6 t : S256.Idx → EReal) = V c main_arg5 := by
  obtain ⟨-, -, -, -, -, -, -, -, -, -, -, e0, -⟩ := index_facts t
  funext y
  unfold iblk1
  rw [View.read_apply]
  show V c main_arg5 _ = V c main_arg5 y
  congr 1
  funext a
  apply Fin.ext
  match a with
  | ⟨0, _⟩ => show win1_6.index t (0 : Fin 1) * 256 + 1 * (y 0).val = (y 0).val; rw [e0]; omega

/-! ## From blocks to the array -/

/-- WHAT POINT t WRITES BACK is its block of the update of all the nodes. -/
theorem flushed_eq (c : Dev nD) (t : Fin cfg1.N) :
    (dat1 V c).flushed 7 t = ((cfg1.win 7).blk t).view.read (Elt Ideal) (update V c) := by
  obtain ⟨-, -, -, -, -, -, -, -, -, -, -, -, e0, e1⟩ := index_facts t
  show (cfg1.win 7).cut (grid1.coords t) ((dat1 V c).after 7 t) = _
  rw [after1_7]
  unfold out1_7
  rw [View.canon_unit_zero off2]
  simp only [View.ld_unit_zero (S := S400x256) off2, View.ld_unit_zero (S := S256x256) off2, View.ld_unit_zero (S := S256) off1]
  rw [body_eq, w1_block V c t, b1_block V c t, w2_block V c t, b2_block V c t]
  funext j
  obtain ⟨p, q, rfl⟩ : ∃ (p : Fin 400) (q : Fin 256), j = ix2 p q := ⟨j 0, j 1, eq_ix2 j⟩
  have hemb : ((cfg1.win 7).blk t).view.emb (ix2 p q)
      = (ix2 ⟨400 * t.val + p.val, by have := point_lt t; have := p.isLt; omega⟩ q : S10000x256.Idx) := by
    funext a
    apply Fin.ext
    match a with
    | ⟨0, _⟩ => show win1_7.index t (0 : Fin 2) * 400 + 1 * p.val = 400 * t.val + p.val; rw [e0]; omega
    | ⟨1, _⟩ => show win1_7.index t (1 : Fin 2) * 256 + 1 * q.val = q.val; rw [e1]; omega
  rw [View.read_apply, hemb]
  exact update_rows (off := 400 * t.val) (by have := point_lt t; omega) _ _ _ _ _ _ _ _ _ _ p q
    (fun k => x_block V c t p k) (fun k => s_block V c t p k) (fun k => g_block V c t p k)

/-- An index is in point t's block iff its row is among that block's 400 and its column among the 256. -/
theorem mem_blk (t : Fin cfg1.N) (i : S10000x256.Idx) :
    i ∈ ((cfg1.win 7).blk t).view.set ↔ ∀ a : Fin 2, win1_7.index t a * S400x256.size a ≤ (i a).val
      ∧ (i a).val < win1_7.index t a * S400x256.size a + S400x256.size a := by
  show i ∈ ((View.whole main_v29).slice (win1_7.rect t)).set ↔ _
  rw [View.set_slice_whole, Rect.mem_set_unit]
  exact Iff.rfl

/-- The 25 blocks tile the rows: row r is in the block of point r / 400. -/
theorem covered (i : S10000x256.Idx) :
    ∃ t : Fin cfg1.N, (cfg1.win 7).flush t = true ∧ i ∈ ((cfg1.win 7).blk t).view.set := by
  have h0 : (i 0).val < 10000 := (i 0).isLt
  have h1 : (i 1).val < 256 := (i 1).isLt
  let t : Fin cfg1.N := ⟨(i 0).val / 400, by rw [show cfg1.N = 25 from N_1]; omega⟩
  obtain ⟨-, -, -, -, -, -, -, -, -, -, -, -, e0, e1⟩ := index_facts t
  refine ⟨t, flush1_7 t, ?_⟩
  rw [mem_blk]
  intro a
  match a with
  | ⟨0, _⟩ =>
    show win1_7.index t (0 : Fin 2) * 400 ≤ (i 0).val ∧ (i 0).val < win1_7.index t (0 : Fin 2) * 400 + 400
    rw [e0]
    show (i 0).val / 400 * 400 ≤ (i 0).val ∧ (i 0).val < (i 0).val / 400 * 400 + 400
    omega
  | ⟨1, _⟩ =>
    show win1_7.index t (1 : Fin 2) * 256 ≤ (i 1).val ∧ (i 1).val < win1_7.index t (1 : Fin 2) * 256 + 256
    rw [e1]
    omega

/-- THE OUTPUT ARRAY after the grid: the update of all the nodes. -/
theorem array_eq (c : Dev nD) : (dat1 V c).arrAt 7 cfg1.N = update V c :=
  (dat1 V c).arrAt_eq_of_cover 7 (update V c) (fun t _ => flushed_eq V c t) covered

end Cert.KernelIdeal.NodeUpdate

end
-- ==== Proof.HostStages.lean ====
/-
  The host operations around the two kernels, read back.

  Before the first kernel: the two rows of the edge table are sliced out and flattened (destinations, sources), and the
  node features and both weight matrices pass through a change of float format, which on the extended reals changes
  nothing. Between the kernels: a negative source is moved up by the number of nodes and the sources are laid out as a
  column; the hidden rows are read per edge by that column and summed per destination node from zeros; a one per edge
  is summed per destination node from zeros (the in-degree) and multiplied, node by node and feature by feature, with
  the second bias. Each buffer a kernel reads is stated as a function of the contents `W` the stretch starts from.
-/
import proofs.«157220_j79688823210541_2_alg».proof.Proof.Gen.KernelIdeal.Frame
import Idealize.ShloMosaic.Lib.StableHlo.Run
import Idealize.ShloMosaic.Lib.Pipeline.Value
import proofs.«157220_j79688823210541_2_alg».proof.Proof.LibEdgeNodeLayer
import proofs.«157220_j79688823210541_2_alg».proof.Proof.LibVecGatherScatter

noncomputable section

namespace Cert.KernelIdeal.HostStages

open Cert.KernelIdeal Cert.KernelIdeal.Gen
open Idealize.ShloMosaic Idealize.ShloMosaic.TcCoe Idealize.SL.Sem Idealize.ShloMosaic.ValueIdx Idealize.ShloMosaic.StableHlo
open Cert.GraphLayer Cert.LibDenseLayer Cert.SegmentSum Cert.Lib.RowGatherScatter Cert.Lib.VecGatherScatter

/-- There is at least one node. -/
theorem nodes_pos : 0 < 10000 := by norm_num

/-! ## The index arrays -/

/-- The destinations: the first row of the edge table, flattened. -/
def dstOf (ei : IVec S2x320000 32) : IVec S320000 32 :=
  shapeCast S320000 (extractStridedSlice S1x320000 ![0, 0] ei slices_S2x320000_S1x320000_0_0) shapeCasts_S1x320000_S320000

/-- The sources as written: the second row of the edge table, flattened. -/
def colOf (ei : IVec S2x320000 32) : IVec S320000 32 :=
  shapeCast S320000 (extractStridedSlice S1x320000 ![1, 0] ei slices_S2x320000_S1x320000_1_0) shapeCasts_S1x320000_S320000

/-- The sources as read: a negative one moved up by the number of nodes, laid out as a column. -/
def srcCol (col : IVec S320000 32) : IVec S320000x1 32 :=
  broadcastInDim S320000x1 ![0] bcast_S320000_S320000x1_0
    (select (cmpi .slt col (broadcastInDim S320000 ![] bcast_S_S320000 (constantI S_ 32 0#32)))
      (addi col (broadcastInDim S320000 ![] bcast_S_S320000 (constantI S_ 32 10000#32))) col)

variable (W : Valuation τ sig (Elt Ideal))

/-! ## Before the first kernel -/

theorem features_in : after (hostOps0 (F := Ideal)) W (Proc.devRef .tc main_v4)
    = (W (Proc.devRef .tc main_arg0) : S10000x256.Idx → EReal) := by
  dsimp only [hostOps0]; after_results; rfl

theorem weight1_in : after (hostOps0 (F := Ideal)) W (Proc.devRef .tc main_v5)
    = (W (Proc.devRef .tc main_arg2) : S256x256.Idx → EReal) := by
  dsimp only [hostOps0]; after_results; rfl

theorem weight2_in : after (hostOps0 (F := Ideal)) W (Proc.devRef .tc main_v6)
    = (W (Proc.devRef .tc main_arg4) : S256x256.Idx → EReal) := by
  dsimp only [hostOps0]; after_results; rfl

theorem dst_in : after (hostOps0 (F := Ideal)) W (Proc.devRef .tc main_v1)
    = dstOf (W (Proc.devRef .tc main_arg1) : IVec S2x320000 32) := by
  dsimp only [hostOps0]; after_results; rfl

theorem col_in : after (hostOps0 (F := Ideal)) W (Proc.devRef .tc main_v3)
    = colOf (W (Proc.devRef .tc main_arg1) : IVec S2x320000 32) := by
  dsimp only [hostOps0]; after_results; rfl

theorem keep0_arg0 : after (hostOps0 (F := Ideal)) W (Proc.devRef .tc main_arg0) = W (Proc.devRef .tc main_arg0) := by
  dsimp only [hostOps0]; after_results

theorem keep0_arg3 : after (hostOps0 (F := Ideal)) W (Proc.devRef .tc main_arg3) = W (Proc.devRef .tc main_arg3) := by
  dsimp only [hostOps0]; after_results

theorem keep0_arg5 : after (hostOps0 (F := Ideal)) W (Proc.devRef .tc main_arg5) = W (Proc.devRef .tc main_arg5) := by
  dsimp only [hostOps0]; after_results

/-! ## Between the kernels -/

theorem sums_in : after (hostOps1 (F := Ideal)) W (Proc.devRef .tc main_v28)
    = Host.scatterAdd (F := Ideal) scatter_S10000x256_S320000x1_S320000x256_1_0_0_1
        (broadcastInDim S10000x256 ![] bcast_S_S10000x256 (constant (F := Ideal) S_ .f32 0x00000000#32))
        (broadcastInDim S320000x1 ![0] bcast_S320000_S320000x1_0 (W (Proc.devRef .tc main_v1) : IVec S320000 32))
        (Host.gather gather_S10000x256_S320000x1_S320000x256_1_0_n_n_0_1_1256
          (W (Proc.devRef .tc main_v7) : S10000x256.Idx → EReal) (srcCol (W (Proc.devRef .tc main_v3) : IVec S320000 32))) := by
  dsimp only [hostOps1]; after_results_simp; rfl

theorem degree_bias_in : after (hostOps1 (F := Ideal)) W (Proc.devRef .tc main_v27)
    = mulf (broadcastInDim S10000x256 ![0, 1] bcast_S10000x1_S10000x256_0_1
        (broadcastInDim S10000x1 ![0] bcast_S10000_S10000x1_0
          (Host.scatterAdd (F := Ideal) scatter_S10000_S320000x1_S320000_n_0_0_1
            (broadcastInDim S10000 ![] bcast_S_S10000 (constant (F := Ideal) S_ .f32 0x00000000#32))
            (broadcastInDim S320000x1 ![0] bcast_S320000_S320000x1_0 (W (Proc.devRef .tc main_v1) : IVec S320000 32))
            (broadcastInDim S320000 ![] bcast_S_S320000 (constant (F := Ideal) S_ .f32 0x3F800000#32)))))
      (broadcastInDim S10000x256 ![0, 1] bcast_S1x256_S10000x256_0_1
        (broadcastInDim S1x256 ![1] bcast_S256_S1x256_1 (W (Proc.devRef .tc main_arg5) : S256.Idx → EReal))) := by
  dsimp only [hostOps1]; after_results_simp

theorem keep1_arg0 : after (hostOps1 (F := Ideal)) W (Proc.devRef .tc main_arg0) = W (Proc.devRef .tc main_arg0) := by
  dsimp only [hostOps1]; after_results_simp

theorem keep1_v5 : after (hostOps1 (F := Ideal)) W (Proc.devRef .tc main_v5) = W (Proc.devRef .tc main_v5) := by
  dsimp only [hostOps1]; after_results_simp

theorem keep1_arg3 : after (hostOps1 (F := Ideal)) W (Proc.devRef .tc main_arg3) = W (Proc.devRef .tc main_arg3) := by
  dsimp only [hostOps1]; after_results_simp

theorem keep1_v6 : after (hostOps1 (F := Ideal)) W (Proc.devRef .tc main_v6) = W (Proc.devRef .tc main_v6) := by
  dsimp only [hostOps1]; after_results_simp

theorem keep1_arg5 : after (hostOps1 (F := Ideal)) W (Proc.devRef .tc main_arg5) = W (Proc.devRef .tc main_arg5) := by
  dsimp only [hostOps1]; after_results_simp

/-! ## The two stages as pieces of the layer -/

/-- The rows read per edge and summed per destination node. -/
theorem sums_eq (Z : FVec Ideal S10000x256 .f32) (src : IVec S320000x1 32) (dst : IVec S320000 32) :
    Host.scatterAdd (F := Ideal) scatter_S10000x256_S320000x1_S320000x256_1_0_0_1
        (broadcastInDim S10000x256 ![] bcast_S_S10000x256 (constant (F := Ideal) S_ .f32 0x00000000#32))
        (broadcastInDim S320000x1 ![0] bcast_S320000_S320000x1_0 dst)
        (Host.gather gather_S10000x256_S320000x1_S320000x256_1_0_n_n_0_1_1256 Z src)
      = edgeSum (N := 10000) (gatherRows nodes_pos Z src) dst := by
  have hg : Host.gather gather_S10000x256_S320000x1_S320000x256_1_0_n_n_0_1_1256 Z src = gatherRows nodes_pos Z src := by
    funext i
    obtain ⟨e, k, rfl⟩ : ∃ (e : Fin 320000) (k : Fin 256), i = ix2 e k := ⟨i 0, i 1, eq_ix2 i⟩
    exact hostGather_rows_apply nodes_pos gather_S10000x256_S320000x1_S320000x256_1_0_n_n_0_1_1256_wf _ rfl Z src e k
  rw [hg]
  funext i
  obtain ⟨n, d, rfl⟩ : ∃ (n : Fin 10000) (d : Fin 256), i = ix2 n d := ⟨i 0, i 1, eq_ix2 i⟩
  exact rows_apply scatter_S10000x256_S320000x1_S320000x256_1_0_0_1_wf bcast_S_S10000x256 bcast_S320000_S320000x1_0 dst _ n d

/-- The in-degree times the second bias, node by node and feature by feature. -/
theorem degree_bias_eq (dst : IVec S320000 32) (b2 : FVec Ideal S256 .f32) :
    mulf (broadcastInDim S10000x256 ![0, 1] bcast_S10000x1_S10000x256_0_1
        (broadcastInDim S10000x1 ![0] bcast_S10000_S10000x1_0
          (Host.scatterAdd (F := Ideal) scatter_S10000_S320000x1_S320000_n_0_0_1
            (broadcastInDim S10000 ![] bcast_S_S10000 (constant (F := Ideal) S_ .f32 0x00000000#32))
            (broadcastInDim S320000x1 ![0] bcast_S320000_S320000x1_0 dst)
            (broadcastInDim S320000 ![] bcast_S_S320000 (constant (F := Ideal) S_ .f32 0x3F800000#32)))))
      (broadcastInDim S10000x256 ![0, 1] bcast_S1x256_S10000x256_0_1 (broadcastInDim S1x256 ![1] bcast_S256_S1x256_1 b2))
      = fun i => inDegree (N := 10000) dst (ix1 (i 0)) * b2 (ix1 (i 1)) := by
  funext i
  obtain ⟨n, d, rfl⟩ : ∃ (n : Fin 10000) (d : Fin 256), i = ix2 n d := ⟨i 0, i 1, eq_ix2 i⟩
  rw [mulf_apply]
  have eL2 := broadcastInDim_apply _ bcast_S10000x1_S10000x256_0_1
    (broadcastInDim S10000x1 ![0] bcast_S10000_S10000x1_0
      (Host.scatterAdd (F := Ideal) scatter_S10000_S320000x1_S320000_n_0_0_1
        (broadcastInDim S10000 ![] bcast_S_S10000 (constant (F := Ideal) S_ .f32 0x00000000#32))
        (broadcastInDim S320000x1 ![0] bcast_S320000_S320000x1_0 dst)
        (broadcastInDim S320000 ![] bcast_S_S320000 (constant (F := Ideal) S_ .f32 0x3F800000#32))))
    (ix2 n d) (ix2 n (0 : Fin 1)) (fun a => match a with
      | ⟨0, _⟩ => by show n.val = if (10000 : Nat) = 1 then 0 else n.val; rw [if_neg (by decide)]
      | ⟨1, _⟩ => by show 0 = if (1 : Nat) = 1 then 0 else d.val; rw [if_pos rfl])
  have eL1 := broadcastInDim_apply _ bcast_S10000_S10000x1_0
    (Host.scatterAdd (F := Ideal) scatter_S10000_S320000x1_S320000_n_0_0_1
      (broadcastInDim S10000 ![] bcast_S_S10000 (constant (F := Ideal) S_ .f32 0x00000000#32))
      (broadcastInDim S320000x1 ![0] bcast_S320000_S320000x1_0 dst)
      (broadcastInDim S320000 ![] bcast_S_S320000 (constant (F := Ideal) S_ .f32 0x3F800000#32)))
    (ix2 n (0 : Fin 1)) (ix1 n) (fun a => match a with
      | ⟨0, _⟩ => by show n.val = if (10000 : Nat) = 1 then 0 else n.val; rw [if_neg (by decide)])
  have eR2 := broadcastInDim_apply _ bcast_S1x256_S10000x256_0_1 (broadcastInDim S1x256 ![1] bcast_S256_S1x256_1 b2)
    (ix2 n d) (ix2 (0 : Fin 1) d) (fun a => match a with
      | ⟨0, _⟩ => by show 0 = if (1 : Nat) = 1 then 0 else n.val; rw [if_pos rfl]
      | ⟨1, _⟩ => by show d.val = if (256 : Nat) = 1 then 0 else d.val; rw [if_neg (by decide)])
  have eR1 := broadcastInDim_apply _ bcast_S256_S1x256_1 b2 (ix2 (0 : Fin 1) d) (ix1 d) (fun a => match a with
      | ⟨0, _⟩ => by show d.val = if (256 : Nat) = 1 then 0 else d.val; rw [if_neg (by decide)])
  rw [eL2, eL1, eR2, eR1]
  refine congrArg (· * b2 (ix1 d)) ?_
  refine (vec_apply scatter_S10000_S320000x1_S320000_n_0_0_1_wf bcast_S_S10000 bcast_S320000_S320000x1_0 dst _ n).trans ?_
  show _ = Ideal.ofBits .f32 0x00000000#32 + ∑ _e ∈ inEdges dst n, Ideal.ofBits .f32 0x3F800000#32
  refine congrArg (Ideal.ofBits .f32 0x00000000#32 + ·) (Finset.sum_congr rfl fun e _ => ?_)
  exact splat_apply bcast_S_S320000 0x3F800000#32 (ix1 e)

end Cert.KernelIdeal.HostStages

end
-- ==== Proof.KernelNodeWise.lean ====
/-
  The idealized kernel computes the node-wise arrangement of the layer.

  Following the contents of the buffers through @main: the first kernel finds the node features, the first weight and
  the first bias as launched (the change of float format is the identity on the extended reals) and leaves the
  rectified first layer of all the nodes; the host operations between the kernels read its rows per edge, sum them per
  destination node and form the degree times the second bias; the second kernel finds those two arrays, the node
  features, both weights and both biases, and leaves the perceptron of x + (sums·w₂ + degree·b₂). That is `nodeWise` of
  the arguments.
-/
import proofs.«157220_j79688823210541_2_alg».proof.Proof.NodeHidden
import proofs.«157220_j79688823210541_2_alg».proof.Proof.NodeUpdate
import proofs.«157220_j79688823210541_2_alg».proof.Proof.HostStages

noncomputable section

namespace Cert.KernelIdeal.NodeWise

open Cert.KernelIdeal Cert.KernelIdeal.Gen Cert.KernelIdeal.HostStages
open Idealize.ShloMosaic Idealize.ShloMosaic.TcCoe Idealize.SL.Sem Idealize.ShloMosaic.ValueIdx
open Idealize.ShloMosaic.Pipeline (Dat)
open Cert.GraphLayer Cert.LibDenseLayer

variable (m : (ℓ : Loc nD τ sig) → Buf (Elt Ideal) ℓ) (ρ : Dev nD → PrngReg)

/-! ## The arguments -/

abbrev argX (c : Dev nD) : S10000x256.Idx → EReal := m ((c : Thread nD τ).loc main_arg0)
abbrev argE (c : Dev nD) : IVec S2x320000 32 := m ((c : Thread nD τ).loc main_arg1)
abbrev argW1 (c : Dev nD) : S256x256.Idx → EReal := m ((c : Thread nD τ).loc main_arg2)
abbrev argB1 (c : Dev nD) : S256.Idx → EReal := m ((c : Thread nD τ).loc main_arg3)
abbrev argW2 (c : Dev nD) : S256x256.Idx → EReal := m ((c : Thread nD τ).loc main_arg4)
abbrev argB2 (c : Dev nD) : S256.Idx → EReal := m ((c : Thread nD τ).loc main_arg5)

/-! ## What the first kernel finds and leaves -/

theorem first_features (c : Dev nD) : (V1 m ρ c main_v4 : S10000x256.Idx → EReal) = argX m c := features_in (W0 m ρ c)
theorem first_weight (c : Dev nD) : (V1 m ρ c main_v5 : S256x256.Idx → EReal) = argW1 m c := weight1_in (W0 m ρ c)
theorem first_bias (c : Dev nD) : (V1 m ρ c main_arg3 : S256.Idx → EReal) = argB1 m c := keep0_arg3 (W0 m ρ c)

/-- The first kernel's output array: the rectified first layer of all the nodes. -/
theorem hidden_left (c : Dev nD) : (W2 m ρ c (Proc.devRef .tc main_v7) : S10000x256.Idx → EReal)
    = relu (affine (M := 10000) (K := 256) (N := 256) (argX m c) (argW1 m c) (argB1 m c)) := by
  refine (W2_arr m ρ c 3).trans ((NodeHidden.array_eq (V1 m ρ) c).trans ?_)
  show relu (affine (M := 10000) (K := 256) (N := 256) (V1 m ρ c main_v4 : S10000x256.Idx → EReal)
    (V1 m ρ c main_v5 : S256x256.Idx → EReal) (V1 m ρ c main_arg3 : S256.Idx → EReal)) = _
  rw [first_features, first_weight, first_bias]

/-! ## The other buffers after the first kernel -/

theorem dst_left (c : Dev nD) : (W2 m ρ c (Proc.devRef .tc main_v1) : IVec S320000 32) = dstOf (argE m c) :=
  (W2_of_ne m ρ c main_v1 (by decide)).trans (dst_in (W0 m ρ c))
theorem col_left (c : Dev nD) : (W2 m ρ c (Proc.devRef .tc main_v3) : IVec S320000 32) = colOf (argE m c) :=
  (W2_of_ne m ρ c main_v3 (by decide)).trans (col_in (W0 m ρ c))
theorem x_left (c : Dev nD) : (W2 m ρ c (Proc.devRef .tc main_arg0) : S10000x256.Idx → EReal) = argX m c :=
  (W2_of_ne m ρ c main_arg0 (by decide)).trans (keep0_arg0 (W0 m ρ c))
theorem b2_left (c : Dev nD) : (W2 m ρ c (Proc.devRef .tc main_arg5) : S256.Idx → EReal) = argB2 m c :=
  (W2_of_ne m ρ c main_arg5 (by decide)).trans (keep0_arg5 (W0 m ρ c))
theorem w2_left (c : Dev nD) : (W2 m ρ c (Proc.devRef .tc main_v6) : S256x256.Idx → EReal) = argW2 m c :=
  (W2_of_ne m ρ c main_v6 (by decide)).trans (weight2_in (W0 m ρ c))
theorem w1_left (c : Dev nD) : (W2 m ρ c (Proc.devRef .tc main_v5) : S256x256.Idx → EReal) = argW1 m c :=
  (W2_arr m ρ c 1).trans ((((dat0 (V1 m ρ) c).arrAt_in 1 rfl _).trans (A_eq0 (V1 m ρ) c 1)).trans (weight1_in (W0 m ρ c)))
theorem b1_left (c : Dev nD) : (W2 m ρ c (Proc.devRef .tc main_arg3) : S256.Idx → EReal) = argB1 m c :=
  (W2_arr m ρ c 2).trans ((((dat0 (V1 m ρ) c).arrAt_in 2 rfl _).trans (A_eq0 (V1 m ρ) c 2)).trans (keep0_arg3 (W0 m ρ c)))

/-! ## What the second kernel finds -/

theorem second_x (c : Dev nD) : (V3 m ρ c main_arg0 : S10000x256.Idx → EReal) = argX m c :=
  (keep1_arg0 (W2 m ρ c)).trans (x_left m ρ c)
theorem second_w1 (c : Dev nD) : (V3 m ρ c main_v5 : S256x256.Idx → EReal) = argW1 m c :=
  (keep1_v5 (W2 m ρ c)).trans (w1_left m ρ c)
theorem second_b1 (c : Dev nD) : (V3 m ρ c main_arg3 : S256.Idx → EReal) = argB1 m c :=
  (keep1_arg3 (W2 m ρ c)).trans (b1_left m ρ c)
theorem second_w2 (c : Dev nD) : (V3 m ρ c main_v6 : S256x256.Idx → EReal) = argW2 m c :=
  (keep1_v6 (W2 m ρ c)).trans (w2_left m ρ c)
theorem second_b2 (c : Dev nD) : (V3 m ρ c main_arg5 : S256.Idx → EReal) = argB2 m c :=
  (keep1_arg5 (W2 m ρ c)).trans (b2_left m ρ c)

/-- The per-node sums of the hidden rows read per edge. -/
theorem second_sums (c : Dev nD) : (V3 m ρ c main_v28 : S10000x256.Idx → EReal)
    = edgeSum (N := 10000) (gatherRows nodes_pos
        (relu (affine (M := 10000) (K := 256) (N := 256) (argX m c) (argW1 m c) (argB1 m c))) (srcCol (colOf (argE m c))))
        (dstOf (argE m c)) := by
  refine (sums_in (W2 m ρ c)).trans ?_
  rw [hidden_left, dst_left, col_left]
  exact sums_eq _ _ _

/-- The in-degree times the second bias. -/
theorem second_degree (c : Dev nD) : (V3 m ρ c main_v27 : S10000x256.Idx → EReal)
    = fun i => inDegree (N := 10000) (dstOf (argE m c)) (ix1 (i 0)) * argB2 m c (ix1 (i 1)) := by
  refine (degree_bias_in (W2 m ρ c)).trans ?_
  rw [dst_left, b2_left]
  exact degree_bias_eq _ _

/-! ## The result -/

/-- THE KERNEL'S RESULT ARRAY is the node-wise arrangement of the layer over the arguments. -/
theorem result_eq (c : Dev nD) : (dat1 (V3 m ρ) c).arrAt 7 cfg1.N
    = nodeWise nodes_pos (argX m c) (srcCol (colOf (argE m c))) (dstOf (argE m c)) (argW1 m c) (argB1 m c) (argW2 m c) (argB2 m c) := by
  refine (NodeUpdate.array_eq (V3 m ρ) c).trans ?_
  show mlp (M := 10000) (D := 256)
      (addf (V3 m ρ c main_arg0 : S10000x256.Idx → EReal)
        (addf (plainDot (M := 10000) (K := 256) (P := 256) (V3 m ρ c main_v28 : S10000x256.Idx → EReal) (V3 m ρ c main_v6 : S256x256.Idx → EReal))
          (V3 m ρ c main_v27 : S10000x256.Idx → EReal)))
      (V3 m ρ c main_v5 : S256x256.Idx → EReal) (V3 m ρ c main_arg3 : S256.Idx → EReal)
      (V3 m ρ c main_v6 : S256x256.Idx → EReal) (V3 m ρ c main_arg5 : S256.Idx → EReal) = _
  rw [second_x, second_sums, second_w2, second_degree, second_w1, second_b1, second_b2]
  rfl

end Cert.KernelIdeal.NodeWise

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.FiniteInputs.lean ====
/-
  The precondition, read back: every float argument holds real numbers.

  The precondition is the conjunction, over the five float arguments, of "every entry's absolute value is below +∞".
  On the extended reals that says the entry is neither infinity, so it is a real number. The edge table is an integer
  array and is not constrained.
-/
import proofs.«157220_j79688823210541_2_alg».proof.Pre_finite_inputs
import proofs.«157220_j79688823210541_2_alg».proof.Proof.Gen.Pre_finite_inputs
import Idealize.ShloMosaic.Lib.Affine
import proofs.«157220_j79688823210541_2_alg».proof.Proof.LibFiniteReal

noncomputable section

namespace Cert.FiniteInputs

open Cert.Pre_finite_inputs Cert.Pre_finite_inputs.Gen
open Idealize.ShloMosaic Idealize.ShloMosaic.ValueIdx Cert.FiniteReal

/-- Under the precondition the node features, both weights and both biases have real entries. -/
theorem reals_of_pre (x0 : FVec Ideal S10000x256 .f32) (x1 : IVec S2x320000 32) (x2 : FVec Ideal S256x256 .f32)
    (x3 : FVec Ideal S256 .f32) (x4 : FVec Ideal S256x256 .f32) (x5 : FVec Ideal S256 .f32)
    (h : fn (F := Ideal) x0 x1 x2 x3 x4 x5 = fun _ => 1#1) :
    (∀ i, ∃ r : ℝ, x0 i = r) ∧ (∀ i, ∃ r : ℝ, x2 i = r) ∧ (∀ i, ∃ r : ℝ, x3 i = r)
      ∧ (∀ i, ∃ r : ℝ, x4 i = r) ∧ (∀ i, ∃ r : ℝ, x5 i = r) := by
  have h0 := congrFun h ix0
  dsimp only [fn, fn_part1] at h0
  obtain ⟨h0123, hA5⟩ := IntOp.andi_eq_one.1 (show IntOp.andi _ _ = 1#1 from h0)
  obtain ⟨h012, hA4⟩ := IntOp.andi_eq_one.1 (show IntOp.andi _ _ = 1#1 from h0123)
  obtain ⟨h01, hA3⟩ := IntOp.andi_eq_one.1 (show IntOp.andi _ _ = 1#1 from h012)
  obtain ⟨hA0, hA2⟩ := IntOp.andi_eq_one.1 (show IntOp.andi _ _ = 1#1 from h01)
  exact ⟨fun i => real_of_all x0 _ _ _ hA0 i, fun i => real_of_all x2 _ _ _ hA2 i, fun i => real_of_all x3 _ _ _ hA3 i,
    fun i => real_of_all x4 _ _ _ hA4 i, fun i => real_of_all x5 _ _ _ hA5 i⟩

end Cert.FiniteInputs

end
-- ==== Proof.lean ====
/-
  The certificate of a message-passing layer with a shared two-layer perceptron, computed node-wise by two tiled
  kernels and edge-wise by the reference.

  With mlp(h) = max(h·w₁ + b₁, 0)·w₂ + b₂ applied row by row, both programs compute mlp(x + agg), where agg(n) is the
  sum, over the edges into node n, of mlp applied to the row of the edge's source node. The reference evaluates the
  perceptron once per edge. The kernel evaluates z = max(x·w₁ + b₁, 0) once per node (first kernel, 400 rows per grid
  point), reads z's rows per edge and sums them per destination node on the host, forms the in-degree times b₂ on the
  host, and computes mlp(x + (sums·w₂ + degree·b₂)) in the second kernel. On the extended reals every change of float
  format is the identity, both spellings of a matrix product are the textbook sum, reading a row (the row number
  clamped into the table) commutes with any row-wise function, and an edge whose destination is no node contributes to
  neither program. What remains is ∑ₑ (zₑ·w₂ + b₂) = (∑ₑ zₑ)·w₂ + (∑ₑ 1)·b₂, which distributes a product over a sum
  and so needs real entries: the precondition says the float arguments are finite.

  The three frames are the generated ones (the reference's is its generated run with the result dropped); the
  idealization rewrote nothing; the value claim is assembled below from the kernel's run with its result named, the
  reference's generated run, and the law.
-/
import proofs.«157220_j79688823210541_2_alg».proof.Defs
import proofs.«157220_j79688823210541_2_alg».proof.Proof.Gen.Kernel
import proofs.«157220_j79688823210541_2_alg».proof.Proof.Gen.Kernel.Skeleton
import proofs.«157220_j79688823210541_2_alg».proof.Proof.Gen.Kernel.Launch
import proofs.«157220_j79688823210541_2_alg».proof.Proof.Gen.Kernel.Points
import proofs.«157220_j79688823210541_2_alg».proof.Proof.Gen.Kernel.Frame
import proofs.«157220_j79688823210541_2_alg».proof.Proof.Gen.KernelIdeal
import proofs.«157220_j79688823210541_2_alg».proof.Proof.Gen.KernelIdeal.Skeleton
import proofs.«157220_j79688823210541_2_alg».proof.Proof.Gen.KernelIdeal.Launch
import proofs.«157220_j79688823210541_2_alg».proof.Proof.Gen.KernelIdeal.Points
import proofs.«157220_j79688823210541_2_alg».proof.Proof.Gen.KernelIdeal.Frame
import proofs.«157220_j79688823210541_2_alg».proof.Proof.Gen.ReferenceIdeal
import proofs.«157220_j79688823210541_2_alg».proof.Proof.Gen.ReferenceIdeal.Run
import proofs.«157220_j79688823210541_2_alg».proof.Proof.Gen.ReferenceIdeal.Read
import proofs.«157220_j79688823210541_2_alg».proof.Proof.Gen.Pre_finite_inputs
import proofs.«157220_j79688823210541_2_alg».proof.Proof.LibEdgeNodeLayer
import proofs.«157220_j79688823210541_2_alg».proof.Proof.ReferenceEdgeWise
import proofs.«157220_j79688823210541_2_alg».proof.Proof.KernelRun
import proofs.«157220_j79688823210541_2_alg».proof.Proof.KernelNodeWise
import proofs.«157220_j79688823210541_2_alg».proof.Proof.FiniteInputs
import Idealize.ShloMosaic.Adequacy
import Idealize.ShloMosaic.Init

noncomputable section

namespace Cert.Proof

open Idealize.ShloMosaic Idealize.SL.Sem
open Cert.GraphLayer

/-- The two programs read the sources alike: the second row of the edge table, a negative entry moved up by the
    number of nodes, as a column. -/
theorem sources_agree (ei : IVec Cert.ReferenceIdeal.S2x320000 32) :
    Cert.ReferenceIdeal.Read.val_main_v9 (F := Ideal) ei
      = Cert.KernelIdeal.HostStages.srcCol (Cert.KernelIdeal.HostStages.colOf ei) := rfl

/-- The two programs read the destinations alike: the first row of the edge table. -/
theorem destinations_agree (ei : IVec Cert.ReferenceIdeal.S2x320000 32) :
    Cert.ReferenceIdeal.Read.val_main_v1 (F := Ideal) ei = Cert.KernelIdeal.HostStages.dstOf ei := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the node-wise arrangement of the layer over the kernel's arguments: the kernel by
    its run, the reference by its run, the agreement of the arguments, and the law under the precondition. -/
theorem algebraic : Cert.algebraic_KernelIdeal_ReferenceIdeal := by
  intro m ρ m' ρ' hpre hagree
  refine ⟨fun c => nodeWise Cert.KernelIdeal.HostStages.nodes_pos (Cert.KernelIdeal.NodeWise.argX m c)
      (Cert.KernelIdeal.HostStages.srcCol (Cert.KernelIdeal.HostStages.colOf (Cert.KernelIdeal.NodeWise.argE m c)))
      (Cert.KernelIdeal.HostStages.dstOf (Cert.KernelIdeal.NodeWise.argE m c))
      (Cert.KernelIdeal.NodeWise.argW1 m c) (Cert.KernelIdeal.NodeWise.argB1 m c)
      (Cert.KernelIdeal.NodeWise.argW2 m c) (Cert.KernelIdeal.NodeWise.argB2 m c), ?_, ?_⟩
  · exact (θ_run Cert.KernelIdeal.defs _ _).mono
      (fun r h c => ⟨(h c).1.trans (Cert.KernelIdeal.NodeWise.result_eq m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨r0, r2, r3, r4, r5⟩ := Cert.FiniteInputs.reals_of_pre _ _ _ _ _ _ (hpre c)
    obtain ⟨e0, e1, e2, e3, e4, e5⟩ := hagree c
    rw [Cert.ReferenceIdeal.Read.val_main_v32_eq, Cert.ReferenceIdeal.EdgeWise.result_eq, e0, e1, e2, e3, e4, e5,
      sources_agree, destinations_agree]
    exact edgeWise_eq_nodeWise _ _ _ _ _ _ _ _ r0 r2 r3 r4 r5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
